-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x128 : Shape := ⟨3, ![4, 64, 128]⟩
abbrev S_ : Shape := ⟨0, ![]⟩

class Facts : Prop where
  bcast_S_S4x64x128 : S_.BroadcastsInDim S4x64x128 (![] : Fin 0 → Fin S4x64x128.rank)
  reducesTo_S4x64x128_S_d0_1_2 : S4x64x128.ReducesTo [0, 1, 2] S_
  h_S_ : 0 < S_.numel

variable [Facts]

def fn {F : FTy → Type} [FloatOps F] (main_arg0 : FVec F S4x64x128 .f32) (main_arg1 : FVec F S4x64x128 .f32) : IVec S_ 1 :=
  let main_v0 : FVec F S4x64x128 .f32 := Host.absf main_arg0
  let main_cst : FVec F S_ .f32 := constant S_ .f32 0x7F800000#32
  let main_v1 : FVec F S4x64x128 .f32 := broadcastInDim S4x64x128 ![] bcast_S_S4x64x128 main_cst
  let main_v2 : IVec S4x64x128 1 := cmpf .olt main_v0 main_v1
  let main_c : IVec S_ 1 := constantI S_ 1 1#1
  let main_v3 : IVec S_ 1 := (fun x v => Host.reduce IntOp.andi x v reducesTo_S4x64x128_S_d0_1_2 h_S_) main_v2 main_c
  let main_v4 : FVec F S4x64x128 .f32 := Host.absf main_arg1
  let main_cst_0 : FVec F S_ .f32 := constant S_ .f32 0x7F800000#32
  let main_v5 : FVec F S4x64x128 .f32 := broadcastInDim S4x64x128 ![] bcast_S_S4x64x128 main_cst_0
  let main_v6 : IVec S4x64x128 1 := cmpf .olt main_v4 main_v5
  let main_c_1 : IVec S_ 1 := constantI S_ 1 1#1
  let main_v7 : IVec S_ 1 := (fun x v => Host.reduce IntOp.andi x v reducesTo_S4x64x128_S_d0_1_2 h_S_) main_v6 main_c_1
  let main_v8 : IVec S_ 1 := andi main_v3 main_v7
  main_v8
-- ==== Kernel.lean ====
abbrev S4x64x128 : Shape := ⟨3, ![4, 64, 128]⟩
abbrev S4x64x1x128 : Shape := ⟨4, ![4, 64, 1, 128]⟩
abbrev S4x1x64x128 : Shape := ⟨4, ![4, 1, 64, 128]⟩
abbrev S4x64x64x128 : Shape := ⟨4, ![4, 64, 64, 128]⟩
abbrev S_ : Shape := ⟨0, ![]⟩
abbrev S4x64x64 : Shape := ⟨3, ![4, 64, 64]⟩
abbrev S4x64x64x1 : Shape := ⟨4, ![4, 64, 64, 1]⟩
abbrev S4x4096x128 : Shape := ⟨3, ![4, 4096, 128]⟩
abbrev S4x1x1 : Shape := ⟨3, ![4, 1, 1]⟩
abbrev S1x1024x128 : Shape := ⟨3, ![1, 1024, 128]⟩
abbrev S1x1x1 : Shape := ⟨3, ![1, 1, 1]⟩
abbrev S1024x128 : Shape := ⟨2, ![1024, 128]⟩
abbrev S128x1024 : Shape := ⟨2, ![128, 1024]⟩
abbrev S1024x1024 : Shape := ⟨2, ![1024, 1024]⟩
abbrev S1x1024x1024 : Shape := ⟨3, ![1, 1024, 1024]⟩
abbrev S1 : Shape := ⟨1, ![1]⟩

abbrev nBuf : Space → Nat
  | .hbm => 39
  | .vmem => 10
  | .smem => 0
  | _ => 0

abbrev bufTy : (tb : Table) → Fin (tcTables nBuf tb) → BufTy
  | .hbm, ⟨0, _⟩ => ⟨S4x64x128, .f32⟩
  | .hbm, ⟨1, _⟩ => ⟨S4x64x128, .f32⟩
  | .hbm, ⟨2, _⟩ => ⟨S4x64x1x128, .f32⟩
  | .hbm, ⟨3, _⟩ => ⟨S4x1x64x128, .f32⟩
  | .hbm, ⟨4, _⟩ => ⟨S4x64x64x128, .f32⟩
  | .hbm, ⟨5, _⟩ => ⟨S4x64x64x128, .f32⟩
  | .hbm, ⟨6, _⟩ => ⟨S4x64x64x128, .f32⟩
  | .hbm, ⟨7, _⟩ => ⟨S4x64x64x128, .f32⟩
  | .hbm, ⟨8, _⟩ => ⟨S_, .f32⟩
  | .hbm, ⟨9, _⟩ => ⟨S4x64x64, .f32⟩
  | .hbm, ⟨10, _⟩ => ⟨S4x64x64x1, .f32⟩
  | .hbm, ⟨11, _⟩ => ⟨S4x64x64x1, .f32⟩
  | .hbm, ⟨12, _⟩ => ⟨S_, .f32⟩
  | .hbm, ⟨13, _⟩ => ⟨S4x64x64x1, .f32⟩
  | .hbm, ⟨14, _⟩ => ⟨S4x64x64x1, .f32⟩
  | .hbm, ⟨15, _⟩ => ⟨S4x64x64x128, .f32⟩
  | .hbm, ⟨16, _⟩ => ⟨S4x64x64x128, .f32⟩
  | .hbm, ⟨17, _⟩ => ⟨S4x4096x128, .f32⟩
  | .hbm, ⟨18, _⟩ => ⟨S4x64x1x128, .f32⟩
  | .hbm, ⟨19, _⟩ => ⟨S4x1x64x128, .f32⟩
  | .hbm, ⟨20, _⟩ => ⟨S4x64x64x128, .f32⟩
  | .hbm, ⟨21, _⟩ => ⟨S4x64x64x128, .f32⟩
  | .hbm, ⟨22, _⟩ => ⟨S4x64x64x128, .f32⟩
  | .hbm, ⟨23, _⟩ => ⟨S4x64x64x128, .f32⟩
  | .hbm, ⟨24, _⟩ => ⟨S_, .f32⟩
  | .hbm, ⟨25, _⟩ => ⟨S4x64x64, .f32⟩
  | .hbm, ⟨26, _⟩ => ⟨S4x64x64x1, .f32⟩
  | .hbm, ⟨27, _⟩ => ⟨S4x64x64x1, .f32⟩
  | .hbm, ⟨28, _⟩ => ⟨S_, .f32⟩
  | .hbm, ⟨29, _⟩ => ⟨S4x64x64x1, .f32⟩
  | .hbm, ⟨30, _⟩ => ⟨S4x64x64x1, .f32⟩
  | .hbm, ⟨31, _⟩ => ⟨S4x64x64x128, .f32⟩
  | .hbm, ⟨32, _⟩ => ⟨S4x64x64x128, .f32⟩
  | .hbm, ⟨33, _⟩ => ⟨S4x4096x128, .f32⟩
  | .hbm, ⟨34, _⟩ => ⟨S4x1x1, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S1x1024x128, .f32⟩
  | .local _ .vmem, ⟨1, _⟩ => ⟨S1x1024x128, .f32⟩
  | .local _ .vmem, ⟨2, _⟩ => ⟨S1x1024x128, .f32⟩
  | .local _ .vmem, ⟨3, _⟩ => ⟨S1x1024x128, .f32⟩
  | .local _ .vmem, ⟨4, _⟩ => ⟨S1x1024x128, .f32⟩
  | .local _ .vmem, ⟨5, _⟩ => ⟨S1x1024x128, .f32⟩
  | .local _ .vmem, ⟨6, _⟩ => ⟨S1x1024x128, .f32⟩
  | .local _ .vmem, ⟨7, _⟩ => ⟨S1x1024x128, .f32⟩
  | .local _ .vmem, ⟨8, _⟩ => ⟨S1x1x1, .f32⟩
  | .local _ .vmem, ⟨9, _⟩ => ⟨S1x1x1, .f32⟩
  | _, _ => ⟨S4x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  bcast_S4x64x128_S4x64x1x128_0_1_3 : S4x64x128.BroadcastsInDim S4x64x1x128 (![0, 1, 3] : Fin 3 → Fin S4x64x1x128.rank)
  bcast_S4x64x128_S4x1x64x128_0_2_3 : S4x64x128.BroadcastsInDim S4x1x64x128 (![0, 2, 3] : Fin 3 → Fin S4x1x64x128.rank)
  bcast_S4x64x1x128_S4x64x64x128_0_1_2_3 : S4x64x1x128.BroadcastsInDim S4x64x64x128 (![0, 1, 2, 3] : Fin 4 → Fin S4x64x64x128.rank)
  bcast_S4x1x64x128_S4x64x64x128_0_1_2_3 : S4x1x64x128.BroadcastsInDim S4x64x64x128 (![0, 1, 2, 3] : Fin 4 → Fin S4x64x64x128.rank)
  reducesTo_S4x64x64x128_S4x64x64_d3 : S4x64x64x128.ReducesTo [3] S4x64x64
  h_S_ : 0 < S_.numel
  bcast_S4x64x64_S4x64x64x1_0_1_2 : S4x64x64.BroadcastsInDim S4x64x64x1 (![0, 1, 2] : Fin 3 → Fin S4x64x64x1.rank)
  bcast_S_S4x64x64x1 : S_.BroadcastsInDim S4x64x64x1 (![] : Fin 0 → Fin S4x64x64x1.rank)
  bcast_S4x64x64x1_S4x64x64x128_0_1_2_3 : S4x64x64x1.BroadcastsInDim S4x64x64x128 (![0, 1, 2, 3] : Fin 4 → Fin S4x64x64x128.rank)
  shapeCasts_S4x64x64x128_S4x4096x128 : S4x64x64x128.ShapeCasts S4x4096x128
  inb_S1x1x1_S1x1x1_0_0_0 : ∀ a, (![0, 0, 0] : Fin 3 → Nat) a + S1x1x1.size a ≤ S1x1x1.size a
  h_S1x1x1 : 0 < S1x1x1.numel
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  transposes_S1024x128_p1_0_S128x1024 : S1024x128.Transposes [1, 0] S128x1024
  shapeCasts_S1x1x1_S1x1x1 : S1x1x1.ShapeCasts S1x1x1
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  reducesTo_S4x1x1_S_d0_1_2 : S4x1x1.ReducesTo [0, 1, 2] S_
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x128.size a ≤ S4x4096x128.size a
  hwx0_0 : ∀ i : grid0.Coords, EltTy.bits .f32 = 32 ∨ (Rect.block (s := S4x4096x128) S1x1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S4x4096x128.size a
  hwx0_1 : ∀ i : grid0.Coords, EltTy.bits .f32 = 32 ∨ (Rect.block (s := S4x4096x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x128.size a ≤ S4x4096x128.size a
  hwx0_2 : ∀ i : grid0.Coords, EltTy.bits .f32 = 32 ∨ (Rect.block (s := S4x4096x128) S1x1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x128.size a ≤ S4x4096x128.size a
  hwx0_3 : ∀ i : grid0.Coords, EltTy.bits .f32 = 32 ∨ (Rect.block (s := S4x4096x128) S1x1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_v10) S1x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x128 : Shape := ⟨3, ![4, 64, 128]⟩
abbrev S4x64x1x128 : Shape := ⟨4, ![4, 64, 1, 128]⟩
abbrev S4x1x64x128 : Shape := ⟨4, ![4, 1, 64, 128]⟩
abbrev S4x64x64x128 : Shape := ⟨4, ![4, 64, 64, 128]⟩
abbrev S_ : Shape := ⟨0, ![]⟩
abbrev S4x64x64 : Shape := ⟨3, ![4, 64, 64]⟩
abbrev S4x64x64x1 : Shape := ⟨4, ![4, 64, 64, 1]⟩
abbrev S4x4096x128 : Shape := ⟨3, ![4, 4096, 128]⟩
abbrev S4x4096x4096 : Shape := ⟨3, ![4, 4096, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x64x128, .f32⟩
  | .hbm, ⟨1, _⟩ => ⟨S4x64x128, .f32⟩
  | .hbm, ⟨2, _⟩ => ⟨S4x64x1x128, .f32⟩
  | .hbm, ⟨3, _⟩ => ⟨S4x1x64x128, .f32⟩
  | .hbm, ⟨4, _⟩ => ⟨S4x64x64x128, .f32⟩
  | .hbm, ⟨5, _⟩ => ⟨S4x64x64x128, .f32⟩
  | .hbm, ⟨6, _⟩ => ⟨S4x64x64x128, .f32⟩
  | .hbm, ⟨7, _⟩ => ⟨S4x64x64x128, .f32⟩
  | .hbm, ⟨8, _⟩ => ⟨S_, .f32⟩
  | .hbm, ⟨9, _⟩ => ⟨S4x64x64, .f32⟩
  | .hbm, ⟨10, _⟩ => ⟨S4x64x64x1, .f32⟩
  | .hbm, ⟨11, _⟩ => ⟨S4x64x64x1, .f32⟩
  | .hbm, ⟨12, _⟩ => ⟨S_, .f32⟩
  | .hbm, ⟨13, _⟩ => ⟨S4x64x64x1, .f32⟩
  | .hbm, ⟨14, _⟩ => ⟨S4x64x64x1, .f32⟩
  | .hbm, ⟨15, _⟩ => ⟨S4x64x64x128, .f32⟩
  | .hbm, ⟨16, _⟩ => ⟨S4x64x64x128, .f32⟩
  | .hbm, ⟨17, _⟩ => ⟨S4x4096x128, .f32⟩
  | .hbm, ⟨18, _⟩ => ⟨S4x64x1x128, .f32⟩
  | .hbm, ⟨19, _⟩ => ⟨S4x1x64x128, .f32⟩
  | .hbm, ⟨20, _⟩ => ⟨S4x64x64x128, .f32⟩
  | .hbm, ⟨21, _⟩ => ⟨S4x64x64x128, .f32⟩
  | .hbm, ⟨22, _⟩ => ⟨S4x64x64x128, .f32⟩
  | .hbm, ⟨23, _⟩ => ⟨S4x64x64x128, .f32⟩
  | .hbm, ⟨24, _⟩ => ⟨S_, .f32⟩
  | .hbm, ⟨25, _⟩ => ⟨S4x64x64, .f32⟩
  | .hbm, ⟨26, _⟩ => ⟨S4x64x64x1, .f32⟩
  | .hbm, ⟨27, _⟩ => ⟨S4x64x64x1, .f32⟩
  | .hbm, ⟨28, _⟩ => ⟨S_, .f32⟩
  | .hbm, ⟨29, _⟩ => ⟨S4x64x64x1, .f32⟩
  | .hbm, ⟨30, _⟩ => ⟨S4x64x64x1, .f32⟩
  | .hbm, ⟨31, _⟩ => ⟨S4x64x64x128, .f32⟩
  | .hbm, ⟨32, _⟩ => ⟨S4x64x64x128, .f32⟩
  | .hbm, ⟨33, _⟩ => ⟨S4x4096x128, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096x4096, .f32⟩
  | .hbm, ⟨40, _⟩ => ⟨S4x4096x4096, .i1⟩
  | .hbm, ⟨41, _⟩ => ⟨S_, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call1_v0 : Ref sig .tc := ⟨.hbm, 23, rfl⟩
abbrev main_call1_cst : Ref sig .tc := ⟨.hbm, 24, rfl⟩
abbrev main_call1_v1 : Ref sig .tc := ⟨.hbm, 25, rfl⟩
abbrev main_call1_v2 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_4 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S4x64x128_S4x64x1x128_0_1_3 : S4x64x128.BroadcastsInDim S4x64x1x128 (![0, 1, 3] : Fin 3 → Fin S4x64x1x128.rank)
  bcast_S4x64x128_S4x1x64x128_0_2_3 : S4x64x128.BroadcastsInDim S4x1x64x128 (![0, 2, 3] : Fin 3 → Fin S4x1x64x128.rank)
  bcast_S4x64x1x128_S4x64x64x128_0_1_2_3 : S4x64x1x128.BroadcastsInDim S4x64x64x128 (![0, 1, 2, 3] : Fin 4 → Fin S4x64x64x128.rank)
  bcast_S4x1x64x128_S4x64x64x128_0_1_2_3 : S4x1x64x128.BroadcastsInDim S4x64x64x128 (![0, 1, 2, 3] : Fin 4 → Fin S4x64x64x128.rank)
  reducesTo_S4x64x64x128_S4x64x64_d3 : S4x64x64x128.ReducesTo [3] S4x64x64
  h_S_ : 0 < S_.numel
  bcast_S4x64x64_S4x64x64x1_0_1_2 : S4x64x64.BroadcastsInDim S4x64x64x1 (![0, 1, 2] : Fin 3 → Fin S4x64x64x1.rank)
  bcast_S_S4x64x64x1 : S_.BroadcastsInDim S4x64x64x1 (![] : Fin 0 → Fin S4x64x64x1.rank)
  bcast_S4x64x64x1_S4x64x64x128_0_1_2_3 : S4x64x64x1.BroadcastsInDim S4x64x64x128 (![0, 1, 2, 3] : Fin 4 → Fin S4x64x64x128.rank)
  shapeCasts_S4x64x64x128_S4x4096x128 : S4x64x64x128.ShapeCasts S4x4096x128
  bcast_S_S4x4096x4096 : S_.BroadcastsInDim S4x4096x4096 (![] : Fin 0 → Fin S4x4096x4096.rank)
  reducesTo_S4x4096x4096_S_d0_1_2 : S4x4096x4096.ReducesTo [0, 1, 2] S_
  dot_S4x4096x128_S4x4096x128_S4x4096x4096_2_2_1_1_0_0_wf : DotDims.WF S4x4096x128 S4x4096x128 S4x4096x4096 [2] [2] [1] [1] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf

class Facts : Prop extends Facts₀ where

variable [Facts]
-- ==== Proof.KBodyRuns.lean ====
/-
  The kernel body, run once per control case on arbitrary whole staging buffers.

  The body has one branch: at the first tile of a batch (both inner grid coordinates zero) it first stores zero
  into the one-element accumulator buffer. It then loads the four row blocks and the accumulator, and stores back
  the accumulator plus the tile's total. Two cases, then: RESET (the branch taken) and CARRY (not taken). In both the
  last store covers the whole accumulator buffer, so what the buffer ends with is determined; it is found here as the
  list of stored pieces, newest first, and read back as one value in the next module.
-/
import proofs.«163193_j27479200759850_1_alg».proof.Proof.Gen.Kernel.Launch
import proofs.«163193_j27479200759850_1_alg».proof.Proof.Gen.Kernel.Skeleton
import proofs.«163193_j27479200759850_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition as a function of the grid coordinates: "coordinate 1 is 0 and coordinate 2 is 0",
    spelt as the body computes it. -/
abbrev resetCond (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- Over the 4 x 4 x 4 grid in row-major order the condition holds exactly at the first of each batch's 16 points. -/
theorem resetCond_iff : ∀ t : Fin cfg0.N, resetCond (grid0.coords t) ↔ t.val % 16 = 0 :=
  (by decide +kernel : ∀ t : Fin grid0.N, resetCond (grid0.coords t) ↔ t.val % 16 = 0)

set_option maxHeartbeats 1000000 in
/-- RESET: from the four input buffers at `x0 … x3` and the accumulator buffer at anything, the body returns with the
    inputs as they were and the accumulator buffer written with the pieces `L` (the zero store, then the sum store). -/
noncomputable def runReset (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : resetCond i)
    (x0 x1 x2 x3 : Vec F S1x1024x128 .f32) :
    { L : List (View.Piece (Elt F) S1x1x1 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare x3 ∗ (∃ d, owns (c : Thread nD τ) a7 fullShare d)
            ∗ (iprop(owns (c : Thread nD τ) a3 fullShare x0 ∗ owns (c : Thread nD τ) a4 fullShare x1 ∗ owns (c : Thread nD τ) a5 fullShare x2
                ∗ owns (c : Thread nD τ) a6 fullShare x3
                ∗ (∃ f, a7.view.loc (c : Thread nD τ) ↦[a7.view.set]{fullShare} a7.view.writes (Elt F) f L)) -∗ K ⟨⟩))
          ⊢ wp frame (wpE (defs₀ (F := F)) Variants.none c none) E (cc0__smoothl1_kernel i a3 h3 a4 h4 a5 h5 a6 h6 a7 h7) K } := by
  refine ⟨?_, fun E K => ?run⟩
  case run =>
    simp only [cc0__smoothl1_kernel_eq_skeleton]; unfold cc0__smoothl1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h3.eq_unread hf0
    obtain rfl := h4.eq_unread hf1
    obtain rfl := h5.eq_unread hf2
    obtain rfl := h6.eq_unread hf3
    sl_exec (disch := first | exact hc)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact H4

set_option maxHeartbeats 1000000 in
/-- CARRY: the same from the accumulator buffer at `xo`: the body returns with it written with the pieces `L`
    (the sum store alone). -/
noncomputable def runCarry (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : ¬resetCond i)
    (x0 x1 x2 x3 : Vec F S1x1024x128 .f32) (xo : Vec F S1x1x1 .f32) :
    { L : List (View.Piece (Elt F) S1x1x1 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare xo
            ∗ (iprop(owns (c : Thread nD τ) a3 fullShare x0 ∗ owns (c : Thread nD τ) a4 fullShare x1 ∗ owns (c : Thread nD τ) a5 fullShare x2
                ∗ owns (c : Thread nD τ) a6 fullShare x3
                ∗ (∃ f, a7.view.loc (c : Thread nD τ) ↦[a7.view.set]{fullShare} a7.view.writes (Elt F) f L)) -∗ K ⟨⟩))
          ⊢ wp frame (wpE (defs₀ (F := F)) Variants.none c none) E (cc0__smoothl1_kernel i a3 h3 a4 h4 a5 h5 a6 h6 a7 h7) K } := by
  refine ⟨?_, fun E K => ?run⟩
  case run =>
    simp only [cc0__smoothl1_kernel_eq_skeleton]; unfold cc0__smoothl1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h3.eq_unread hf0
    obtain rfl := h4.eq_unread hf1
    obtain rfl := h5.eq_unread hf2
    obtain rfl := h6.eq_unread hf3
    obtain rfl := h7.eq_unread hf4
    sl_exec (disch := first | exact hc)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact H4

end Cert.Kernel.Hand

end
-- ==== Proof.KBodyValue.lean ====
/-
  What the body leaves in the accumulator's buffer, as one value.

  In both control cases the last store writes the whole one-element buffer, so the buffer ends at that store's
  payload: the accumulator the body loaded (the zero just stored, or what the buffer held) plus the tile's total of the
  four blocks the body loaded. The loads read what the buffers hold.
-/
import proofs.«163193_j27479200759850_1_alg».proof.Proof.KBodyRuns
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the accumulator window, through which its contents are stated (any would do: the contents
    are read back through the same view they are written through). -/
abbrev VO : View sig .tc .vmem S1x1x1 .f32 := (Memref.whole cc0_stg4_0 : Memref sig .tc .vmem S1x1x1 .f32).view

/-- All three offsets of the accumulator's (and the inputs') whole-block rectangle are zero. -/
theorem offsets_zero : (![0, 0, 0] : Fin 3 → ℕ) = fun _ => 0 := by funext a; fin_cases a <;> rfl

/-- RESET's two stores tile the one-element block, so they cover it. -/
theorem coverReset (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : resetCond i)
    (x0 x1 x2 x3 : Vec F S1x1024x128 .f32) (y : S1x1x1.Idx) :
    ∃ pc ∈ (runReset c i a3 h3 a4 h4 a5 h5 a6 h6 a7 h7 hc x0 x1 x2 x3).1, y ∈ pc.1.set :=
  View.cover_of_tiledL (runReset c i a3 h3 a4 h4 a5 h5 a6 h6 a7 h7 hc x0 x1 x2 x3).1 S1x1x1.size (by sl_kernel_rfl) y

/-- What RESET leaves in the accumulator's buffer: its pieces read back. -/
def outReset (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : resetCond i)
    (x0 x1 x2 x3 : Vec F S1x1024x128 .f32) : Vec F S1x1x1 .f32 :=
  VO.read (Elt F) (VO.writes (Elt F) VO.junk (runReset c i a3 h3 a4 h4 a5 h5 a6 h6 a7 h7 hc x0 x1 x2 x3).1)

/-- It is the reset value (zero) plus the tile's total. -/
theorem outReset_eq (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : resetCond i)
    (x0 x1 x2 x3 : Vec F S1x1024x128 .f32) :
    outReset c i a3 h3 a4 h4 a5 h5 a6 h6 a7 h7 hc x0 x1 x2 x3 = k0_pay1 (k0_pay3 (k0_pay2 (F := F))) (k0_pay4 x0 x1 x2 x3) := by
  unfold outReset
  rw [View.read_writes_eq_canon _ _ _ (coverReset c i a3 h3 a4 h4 a5 h5 a6 h6 a7 h7 hc x0 x1 x2 x3)]
  unfold runReset
  dsimp only
  rw [View.canon_cons_unit_zero offsets_zero]
  sl_unfold_words
  rw [View.readCov_unit_zero _ offsets_zero]
  simp only [View.readAt_eq_ld, Memref.IsWhole.read_unread, View.ld_unit_zero (S := S1x1024x128) offsets_zero]

/-- CARRY's one store covers the one-element block. -/
theorem coverCarry (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : ¬resetCond i)
    (x0 x1 x2 x3 : Vec F S1x1024x128 .f32) (xo : Vec F S1x1x1 .f32) (y : S1x1x1.Idx) :
    ∃ pc ∈ (runCarry c i a3 h3 a4 h4 a5 h5 a6 h6 a7 h7 hc x0 x1 x2 x3 xo).1, y ∈ pc.1.set :=
  View.cover_of_tiledL (runCarry c i a3 h3 a4 h4 a5 h5 a6 h6 a7 h7 hc x0 x1 x2 x3 xo).1 S1x1x1.size (by sl_kernel_rfl) y

/-- What CARRY leaves in the accumulator's buffer. -/
def outCarry (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : ¬resetCond i)
    (x0 x1 x2 x3 : Vec F S1x1024x128 .f32) (xo : Vec F S1x1x1 .f32) : Vec F S1x1x1 .f32 :=
  VO.read (Elt F) (VO.writes (Elt F) VO.junk (runCarry c i a3 h3 a4 h4 a5 h5 a6 h6 a7 h7 hc x0 x1 x2 x3 xo).1)

/-- It is what the buffer held plus the tile's total. -/
theorem outCarry_eq (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : ¬resetCond i)
    (x0 x1 x2 x3 : Vec F S1x1024x128 .f32) (xo : Vec F S1x1x1 .f32) :
    outCarry c i a3 h3 a4 h4 a5 h5 a6 h6 a7 h7 hc x0 x1 x2 x3 xo = k0_pay1 (k0_pay3 xo) (k0_pay4 x0 x1 x2 x3) := by
  unfold outCarry
  rw [View.read_writes_eq_canon _ _ _ (coverCarry c i a3 h3 a4 h4 a5 h5 a6 h6 a7 h7 hc x0 x1 x2 x3 xo)]
  unfold runCarry
  dsimp only
  rw [View.canon_cons_unit_zero offsets_zero]
  sl_unfold_words
  simp only [View.readAt_eq_ld, Memref.IsWhole.read_unread, View.ld_unit_zero (S := S1x1024x128) offsets_zero,
    View.ld_unit_zero (S := S1x1x1) offsets_zero]

end Cert.Kernel.Hand

end
-- ==== Proof.KPointData.lean ====
/-
  The pipeline's proof data: what every staging buffer holds after the body at every grid point.

  The four input windows read row blocks of the two arrays of unit differences (windows 0 and 1 both read the first
  array, at row blocks i and j; windows 2 and 3 the second): the body only reads them, so each holds its block at
  every point, fetched there or carried over. The output window is the one-element accumulator: after point t it holds
  the previous point's value (or the reset value, at the first point of a batch) plus the tile's total, a recursion on
  the point. It is written back to the [4,1,1] array only at the last point of each batch, so between those points the
  next point finds what this one left.
-/
import proofs.«163193_j27479200759850_1_alg».proof.Proof.KBodyValue

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers as launched, -/
abbrev V0 (c : Dev nD) : Valuation τ sig (Elt F) := fun b => m ((c : Dev nD), b)
/-- and after each of the five stretches of host lines before the region. -/
abbrev V1 (c : Dev nD) : Valuation τ sig (Elt F) := StableHlo.after (hostOps0 (F := F)) (V0 m c)
abbrev V2 (c : Dev nD) : Valuation τ sig (Elt F) := StableHlo.after (hostOps0_1 (F := F)) (V1 m c)
abbrev V3 (c : Dev nD) : Valuation τ sig (Elt F) := StableHlo.after (hostOps0_2 (F := F)) (V2 m c)
abbrev V4 (c : Dev nD) : Valuation τ sig (Elt F) := StableHlo.after (hostOps0_3 (F := F)) (V3 m c)
abbrev V5 (c : Dev nD) : Valuation τ sig (Elt F) := StableHlo.after (hostOps0_4 (F := F)) (V4 m c)
/-- The region-entry contents of a TensorCore buffer. -/
abbrev V (c : Dev nD) (b : Ref sig .tc) : Buf (Elt F) ((c : Thread nD τ).loc b) := V5 m c b

/-! ## Blocks and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's update of the accumulator: the value found, plus the total of the tile the point's four blocks make. -/
def tileStep (c : Dev nD) (t : Fin cfg0.N) (cur : Vec F S1x1x1 .f32) : Vec F S1x1x1 .f32 :=
  k0_pay1 (k0_pay3 cur) (k0_pay4 (iblk m c 0 t) (iblk m c 1 t) (iblk m c 2 t) (iblk m c 3 t))

/-- The accumulator after the body at position `n`: at the first point of a batch (n a multiple of 16) the update of
    the reset value, else the update of what position n - 1 left. -/
def accAt (c : Dev nD) : (n : ℕ) → n < cfg0.N → Vec F S1x1x1 .f32
  | 0, hn => tileStep m c ⟨0, hn⟩ (k0_pay2 (F := F))
  | n + 1, hn =>
    if (n + 1) % 16 = 0 then tileStep m c ⟨n + 1, hn⟩ (k0_pay2 (F := F))
    else tileStep m c ⟨n + 1, hn⟩ (accAt c n (Nat.lt_of_succ_lt hn))

theorem accAt_reset (c : Dev nD) (t : Fin cfg0.N) (h0 : t.val % 16 = 0) :
    accAt m c t.val t.isLt = tileStep m c t (k0_pay2 (F := F)) := by
  obtain ⟨n, hn⟩ := t
  cases n with
  | zero => exact rfl
  | succ n => exact (if_pos h0).trans rfl

theorem accAt_carry (c : Dev nD) (t : Fin cfg0.N) (h0 : ¬t.val % 16 = 0) :
    accAt m c t.val t.isLt = tileStep m c t (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The proof data -/

/-- On core `c`: the arrays as the region finds them; after the body each input's buffer at its block and the
    accumulator's at `accAt`; the invariant the scoped rest and the generator register; nothing owed. The two
    windows on one array hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => PosShare.left fullShare
    | ⟨1, _⟩ => PosShare.right fullShare
    | ⟨2, _⟩ => PosShare.left fullShare
    | ⟨3, _⟩ => PosShare.right fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- An input's current staging buffer holds its block at every point, fetched there or not: unfetched, the block
    index has not moved since the point that fetched it. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Away from the first point of a batch the accumulator's buffer holds what the point before left: it is not the
    first point, and the buffer was not written back in between (that happens only after the last point of a batch). -/
theorem before_4_carry (c : Dev nD) (t : Fin cfg0.N) (h0 : ¬t.val % 16 = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

abbrev ms0 (t : Fin cfg0.N) : Memref sig .tc .vmem S1x1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1000000 in
/-- The body at any point. The inputs' buffers hold their blocks; the point is the first of its batch or not; in the
    second case the accumulator's buffer holds what the point before left; the case's run applies, and what it leaves
    in the accumulator's buffer is the point's `accAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 16 = 0
  · rw [accAt_reset m c t h0]
    unfold tileStep
    rw [← outReset_eq c (grid0.coords t) (ms0 t) (hs0 t) (ms1 t) (hs1 t) (ms2 t) (hs2 t) (ms3 t) (hs3 t) (ms4 t) (hs4 t) ((resetCond_iff t).mpr h0)]
    unfold outReset
    iintro ⟨HΦ, Ho, ⟨%d0, H0⟩, ⟨%d1, H1⟩, ⟨%d2, H2⟩, ⟨%d3, H3⟩, ⟨%d4, H4⟩⟩
    iapply ((runReset c (grid0.coords t) _ _ _ _ _ _ _ _ _ _ ((resetCond_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverReset c _ _ _ _ _ _ _ _ _ _ _ _ _ _ _ _)
  · rw [accAt_carry m c t h0]
    simp only [before_4_carry m c t h0]
    unfold tileStep
    rw [← outCarry_eq c (grid0.coords t) (ms0 t) (hs0 t) (ms1 t) (hs1 t) (ms2 t) (hs2 t) (ms3 t) (hs3 t) (ms4 t) (hs4 t) (fun h => h0 ((resetCond_iff t).mp h))]
    unfold outCarry
    iintro ⟨HΦ, Ho, ⟨%d0, H0⟩, ⟨%d1, H1⟩, ⟨%d2, H2⟩, ⟨%d3, H3⟩, ⟨%d4, H4⟩⟩
    iapply ((runCarry c (grid0.coords t) _ _ _ _ _ _ _ _ _ _ (fun h => h0 ((resetCond_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverCarry c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KShares.lean ====
/-
  One array read through two windows.

  The region is handed three distinct array buffers: the first array of unit differences (windows 0 and 1 read it),
  the second (windows 2 and 3) and the [4,1,1] result (window 4 writes it). The pipeline wants one holding per
  window. A buffer held whole at the full share is the same as two holdings at the two halves of the full share, at
  the same contents; so the three buffers make the five windows' holdings, and the five make the three back.
-/
import proofs.«163193_j27479200759850_1_alg».proof.Proof.KPointData
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs)

variable (m : (ℓ : Loc nD τ sig) → Buf (Elt F) ℓ)

/-- The distinct buffers behind the five windows' arrays. -/
theorem arrRefs_eq : (Finset.univ.image (arrRef spec0)) = [main_v10, main_v21, main_v22].toFinset := by decide

/-- The three buffers, one by one. -/
theorem arrBufs_eq (c : Dev nD) (Wf : (b : Ref sig .tc) → Buf (Elt F) ((c : Thread nD τ).loc b)) :
    (arrBufs spec0 c Wf : sProp 𝕄)
      = iprop((((c : Thread nD τ).loc main_v10) ↦{fullShare} Wf main_v10) ∗ (((c : Thread nD τ).loc main_v21) ↦{fullShare} Wf main_v21)
          ∗ (((c : Thread nD τ).loc main_v22) ↦{fullShare} Wf main_v22)) :=
  bigSep_eq_bigSepL_of_eq [main_v10, main_v21, main_v22] arrRefs_eq (by decide) _

/-- The five windows' holdings, one by one: each array a whole buffer, at its window's share. -/
theorem arrays_eq5 (c : Dev nD) (Fa : (w : Fin cfg0.W) → Buf (Elt F) ((cfg0.win w).arr.view.loc (c : Thread nD τ))) :
    ((dats m 0 c).arrays Fa : sProp 𝕄)
      = iprop((((c : Thread nD τ).loc main_v10) ↦{PosShare.left fullShare} Fa 0) ∗ (((c : Thread nD τ).loc main_v10) ↦{PosShare.right fullShare} Fa 1)
          ∗ (((c : Thread nD τ).loc main_v21) ↦{PosShare.left fullShare} Fa 2) ∗ (((c : Thread nD τ).loc main_v21) ↦{PosShare.right fullShare} Fa 3)
          ∗ (((c : Thread nD τ).loc main_v22) ↦{fullShare} Fa 4)) := by
  unfold Dat.arrays
  rw [bigSep_congr (Ψ := fun w : Fin cfg0.W => (((c : Thread nD τ).loc (arrRef spec0 w)) ↦{(dats m 0 c).share w} Fa w : sProp 𝕄))
    (fun w _ => by rw [(arr_whole0 w).set_eq_univ])]
  rw [bigSep_W0]
  rfl

/-- The three buffers whole at `Wf` yield the five windows' holdings at contents that agree with `Wf`. -/
theorem arrays_of_arrBufs (c : Dev nD) (Wf : (b : Ref sig .tc) → Buf (Elt F) ((c : Thread nD τ).loc b))
    (Fa : (w : Fin cfg0.W) → Buf (Elt F) ((cfg0.win w).arr.view.loc (c : Thread nD τ)))
    (h0 : Fa 0 = Wf main_v10) (h1 : Fa 1 = Wf main_v10) (h2 : Fa 2 = Wf main_v21) (h3 : Fa 3 = Wf main_v21) (h4 : Fa 4 = Wf main_v22) :
    (arrBufs spec0 c Wf : sProp 𝕄) ⊢ (dats m 0 c).arrays Fa := by
  rw [arrBufs_eq, arrays_eq5, h0, h1, h2, h3, h4]
  iintro ⟨H10, H21, H22⟩
  ihave Ha := (pointsTo_share (PosShare.mem_left_op_right fullShare)).1 $$ H10
  ihave Hb := (pointsTo_share (PosShare.mem_left_op_right fullShare)).1 $$ H21
  icases Ha with ⟨Ha0, Ha1⟩
  icases Hb with ⟨Hb0, Hb1⟩
  isplitl [Ha0]; · iexact Ha0
  isplitl [Ha1]; · iexact Ha1
  isplitl [Hb0]; · iexact Hb0
  isplitl [Hb1]; · iexact Hb1
  iexact H22

/-- And back: the five holdings, the two on each shared array at the same contents, make the three buffers whole. -/
theorem arrBufs_of_arrays (c : Dev nD) (Wf : (b : Ref sig .tc) → Buf (Elt F) ((c : Thread nD τ).loc b))
    (Fa : (w : Fin cfg0.W) → Buf (Elt F) ((cfg0.win w).arr.view.loc (c : Thread nD τ)))
    (h0 : Fa 0 = Wf main_v10) (h1 : Fa 1 = Wf main_v10) (h2 : Fa 2 = Wf main_v21) (h3 : Fa 3 = Wf main_v21) (h4 : Fa 4 = Wf main_v22) :
    ((dats m 0 c).arrays Fa : sProp 𝕄) ⊢ arrBufs spec0 c Wf := by
  rw [arrBufs_eq, arrays_eq5, h0, h1, h2, h3, h4]
  iintro ⟨Ha0, Ha1, Hb0, Hb1, H22⟩
  isplitl [Ha0 Ha1]
  · iapply (pointsTo_share (PosShare.mem_left_op_right fullShare)).2
    isplitl [Ha0]; · iexact Ha0
    iexact Ha1
  isplitl [Hb0 Hb1]
  · iapply (pointsTo_share (PosShare.mem_left_op_right fullShare)).2
    isplitl [Hb0]; · iexact Hb0
    iexact Hb1
  iexact H22

end Cert.Kernel.Hand

end
-- ==== Proof.KLaunch.lean ====
/-
  The launch: @main as seven segments.

  @main is five stretches of host lines (they build the two arrays of unit differences), the kernel region, and a last
  stretch of host lines (the sum of the four batch totals, divided by 2^26). The host lines run over the core's
  unscoped buffers held whole at a valuation, each stretch taking the valuation to its own result. The region is
  entered by splitting off the three array buffers (two of them shared by two windows each, so held by halves) and
  left by putting them back, the [4,1,1] result now at what the pipeline's proof data computes. At the end every
  unscoped buffer is read back at the final valuation: the result buffer, and both arguments.
-/
import proofs.«163193_j27479200759850_1_alg».proof.Proof.KShares
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest ucRefs)

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers: the core owing nothing, and its generator register at some state. -/
abbrev R (c : Dev nD) : sProp 𝕄 :=
  iprop((∃ W, owes (c : Thread nD τ) (0 : CellTallies nD τ sig Unit) W) ∗ ∃ r, prngReg c r)

/-! ## The valuations after the region -/

/-- The [4,1,1] result array after the region, as the pipeline's proof data computes it. -/
abbrev outFinal (c : Dev nD) : Buf (Elt F) ((c : Thread nD τ).loc main_v22) := (dats m 0 c).arrAt 4 cfg0.N

/-- The buffers when the region is left: as entered, the result array at `outFinal`. -/
def W6 (c : Dev nD) : Valuation τ sig (Elt F) := Function.update (V5 m c) (Proc.devRef .tc main_v22) (outFinal m c)
/-- The buffers at the end: the last stretch of host lines has run. -/
abbrev W7 (c : Dev nD) : Valuation τ sig (Elt F) := StableHlo.after (hostOps1 (F := F)) (W6 m c)

theorem W6_v22 (c : Dev nD) : W6 m c (Proc.devRef .tc main_v22) = outFinal m c := Function.update_self ..
theorem W6_of_ne (c : Dev nD) (b : Ref sig .tc) (h : b ≠ main_v22) : W6 m c (Proc.devRef .tc b) = V m c b :=
  Function.update_of_ne (StableHlo.devRef_ne_of_ne h) ..

/-! ## The host segments -/

abbrev hostSeg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (ucRefs τ sig) ops (fun op h => Pipeline.sub_ucRefs op ((List.forall_iff_forall_mem.mp hsub) op h)) hf W R

def seg0 := hostSeg (F := F) hostOps0 hostOps0_sub (by intro _ h; (repeat (cases h with | head => rfl | tail _ h => ?_)); exact nomatch h) (V0 m)
def seg1 := hostSeg (F := F) hostOps0_1 hostOps0_1_sub (by intro _ h; (repeat (cases h with | head => rfl | tail _ h => ?_)); exact nomatch h) (V1 m)
def seg2 := hostSeg (F := F) hostOps0_2 hostOps0_2_sub (by intro _ h; (repeat (cases h with | head => rfl | tail _ h => ?_)); exact nomatch h) (V2 m)
def seg3 := hostSeg (F := F) hostOps0_3 hostOps0_3_sub (by intro _ h; (repeat (cases h with | head => rfl | tail _ h => ?_)); exact nomatch h) (V3 m)
def seg4 := hostSeg (F := F) hostOps0_4 hostOps0_4_sub (by intro _ h; (repeat (cases h with | head => rfl | tail _ h => ?_)); exact nomatch h) (V4 m)
def seg6 := hostSeg (F := F) hostOps1 hostOps1_sub (by intro _ h; (repeat (cases h with | head => rfl | tail _ h => ?_)); exact nomatch h) (W6 m)

/-! ## The region -/

/-- Off the three array buffers the two valuations agree: the unscoped rest is the same holding. -/
theorem unscopedRest_W6 (c : Dev nD) :
    (unscopedRest spec0 c (fun b => W6 m c (Proc.devRef .tc b)) : sProp 𝕄) = unscopedRest spec0 c (V m c) := by
  unfold unscopedRest
  refine bigSep_congr fun b hb => ?_
  dsimp only
  rw [W6_of_ne m c b fun e => (Finset.mem_sdiff.mp hb).2 (e ▸ (by decide : main_v22 ∈ Finset.univ.image (arrRef spec0)))]

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (ucRefs τ sig) (V5 m c) ∗ R c)
  post c := iprop(StableHlo.held (c : Thread nD τ) (ucRefs τ sig) (W6 m c) ∗ R c)
  X c := iprop(∃ r, prngReg c r)
  Y c := iprop(∃ r, prngReg c r)
  Z c := unscopedRest spec0 c (V m c)
  hentry c := by
    rw [show StableHlo.held (c : Thread nD τ) (ucRefs τ sig) (V5 m c) = unscopedBufs c (V m c) from (Pipeline.unscopedBufs_held c _).symm,
      Pipeline.unscopedBufs_split₀ cfgs 0 winFacts₀0.arr_unscoped c (V m c)]
    iintro ⟨⟨⟨Harr, Hrest⟩, ⟨HO, Hp⟩⟩, -, -⟩
    imodintro
    isplitl [Harr]
    · iapply (arrays_of_arrBufs m c (V m c) _ rfl rfl rfl rfl rfl); iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (ucRefs τ sig) (W6 m c) = unscopedBufs c (fun b => W6 m c (Proc.devRef .tc b)) from (Pipeline.unscopedBufs_held c _).symm,
      Pipeline.unscopedBufs_split₀ cfgs 0 winFacts₀0.arr_unscoped c, unscopedRest_W6]
    have hjoin := arrBufs_of_arrays m c (fun b => W6 m c (Proc.devRef .tc b)) ((dats m 0 c).arrAt · cfg0.N)
      (((dats m 0 c).arrAt_in 0 rfl _).trans ((A_eq m c 0).trans (W6_of_ne m c main_v10 (by decide)).symm))
      (((dats m 0 c).arrAt_in 1 rfl _).trans ((A_eq m c 1).trans (W6_of_ne m c main_v10 (by decide)).symm))
      (((dats m 0 c).arrAt_in 2 rfl _).trans ((A_eq m c 2).trans (W6_of_ne m c main_v21 (by decide)).symm))
      (((dats m 0 c).arrAt_in 3 rfl _).trans ((A_eq m c 3).trans (W6_of_ne m c main_v21 (by decide)).symm))
      (W6_v22 m c).symm
    iintro ⟨Ha, HO, HY, HZ⟩
    imodintro
    isplitl [Ha HZ]
    · isplitl [Ha]
      · iapply hjoin; iexact Ha
      iexact HZ
    isplitl [HO]
    · unfold Pipeline.Dat.owesAt Pipeline.owesWithin
      icases HO with ⟨%W, -, HO⟩; iexists W; iexact HO
    iexact HY

end Cert.Kernel.Hand

end
-- ==== Proof.KRun.lean ====
/-
  The run of @main: every weakly fair execution terminates, nothing faults, and at the end every unscoped buffer of
  the core holds what the last valuation says — the composition of the host lines' functions and the pipeline's
  account of the result array.
-/
import proofs.«163193_j27479200759850_1_alg».proof.Proof.KLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest ucRefs)

variable (m : (ℓ : Loc nD τ sig) → Buf (Elt F) ℓ) (ρ : Dev nD → PrngReg)

/-- @main as its seven segments. -/
abbrev segs : List (Pipeline.Seg (pcfgs (F := F)) adm (dats m) () defs₀ 𝒱₀ L lv) :=
  [.host (seg0 m), .host (seg1 m), .host (seg2 m), .host (seg3 m), .host (seg4 m), .region (reg0 m), .host (seg6 m)]

/-- The launch element: the pipeline library's at the staging cells. -/
def u₀ : UR sig nD τ := initOf (Pipeline.cells cfgs cellOf_inj) (Pipeline.launchToks cfgs cellOf_inj)

/-- The physical post: every unscoped buffer at the final valuation. -/
def QM : PUnit × MemSt nD τ sig (Elt F) → Prop := fun r =>
  ∀ c : Dev nD, ∀ b ∈ ucRefs τ sig, r.2.mem ((c : Thread nD τ).1, b) = W7 m c b

set_option backward.isDefEq.respectTransparency.types false in
set_option maxHeartbeats 1000000 in
theorem run_all : θ_run defs (onTc (τ := τ) (main (F := F))) ⟨m, fun _ => 0, ρ⟩ (QM m) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ R c))
    (Tₙ := fun c => iprop(StableHlo.held (c : Thread nD τ) (ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (ucRefs τ sig) (W7 m c) ∗ R c) ⊢ _
      iintro ⟨Hh, ⟨HO, Hp⟩⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (ucRefs τ sig) (V0 m c)
        from Pipeline.unscopedBufs_held c (V0 m c)]
      iintro ⟨⟨Hh, -, HO, -, Hp, -⟩, -⟩
      imodintro
      isplitl [Hh]; · iexact Hh
      isplitl [HO]; · iexists ∅; iexact HO
      iexists _; iexact Hp)
    (QY := fun c s => ∀ b ∈ ucRefs τ sig, s.mem ((c : Thread nD τ).1, b) = W7 m c b)
    (hfin := fun c s' => by
      iintro ⟨⟨Hh, -⟩, HSI⟩
      imodintro
      unfold StableHlo.held
      iapply (pointsTo_read_all (ucRefs τ sig) (fun b => ((c : Thread nD τ).1, b)) (W7 m c) s')
      isplitl [Hh] <;> iassumption)
    (hQ := fun _ h => h)

/-! ## The arguments are never written -/

/-- No host line and no window of the region writes the first argument: the final valuation has it as launched. -/
theorem W7_arg0 (c : Dev nD) : W7 m c (Proc.devRef .tc main_arg0) = m ((c : Thread nD τ).loc main_arg0) := by
  show StableHlo.after (hostOps1 (F := F)) (W6 m c) (Proc.devRef .tc main_arg0) = _
  after_results_simp
  rw [W6_of_ne m c main_arg0 (by decide)]
  show StableHlo.after (hostOps0_4 (F := F)) (StableHlo.after (hostOps0_3 (F := F)) (StableHlo.after (hostOps0_2 (F := F))
    (StableHlo.after (hostOps0_1 (F := F)) (StableHlo.after (hostOps0 (F := F)) (V0 m c))))) (Proc.devRef .tc main_arg0) = _
  after_results_simp

/-- Nor the second. -/
theorem W7_arg1 (c : Dev nD) : W7 m c (Proc.devRef .tc main_arg1) = m ((c : Thread nD τ).loc main_arg1) := by
  show StableHlo.after (hostOps1 (F := F)) (W6 m c) (Proc.devRef .tc main_arg1) = _
  after_results_simp
  rw [W6_of_ne m c main_arg1 (by decide)]
  show StableHlo.after (hostOps0_4 (F := F)) (StableHlo.after (hostOps0_3 (F := F)) (StableHlo.after (hostOps0_2 (F := F))
    (StableHlo.after (hostOps0_1 (F := F)) (StableHlo.after (hostOps0 (F := F)) (V0 m c))))) (Proc.devRef .tc main_arg1) = _
  after_results_simp

theorem arg0_mem : Proc.devRef (τ := τ) .tc main_arg0 ∈ ucRefs τ sig := by decide
theorem arg1_mem : Proc.devRef (τ := τ) .tc main_arg1 ∈ ucRefs τ sig := by decide
theorem v24_mem : Proc.devRef (τ := τ) .tc main_v24 ∈ ucRefs τ sig := by decide

/-- The frame: @main runs to the end, nothing faults, and both argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ arg0_mem).trans (W7_arg0 m c), (h c _ arg1_mem).trans (W7_arg1 m c)⟩) (run_all m ρ)

end Cert.Kernel.Hand

end
-- ==== Proof.BodyRuns.lean ====
/-
  The kernel body, run once per control case on arbitrary whole staging buffers.

  The body has one branch: at the first tile of a batch (both inner grid coordinates zero) it first stores zero
  into the one-element accumulator buffer. It then loads the four row blocks and the accumulator, and stores back
  the accumulator plus the tile's total. Two cases, then: RESET (the branch taken) and CARRY (not taken). In both the
  last store covers the whole accumulator buffer, so what the buffer ends with is determined; it is found here as the
  list of stored pieces, newest first, and read back as one value in the next module.
-/
import proofs.«163193_j27479200759850_1_alg».proof.Proof.Gen.KernelIdeal.Launch
import proofs.«163193_j27479200759850_1_alg».proof.Proof.Gen.KernelIdeal.Skeleton
import proofs.«163193_j27479200759850_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's branch condition as a function of the grid coordinates: "coordinate 1 is 0 and coordinate 2 is 0",
    spelt as the body computes it. -/
abbrev resetCond (i : grid0.Coords) : Prop :=
  Scalar.cmpi .ne (Scalar.extui (Scalar.andi (Scalar.cmpi .eq (BitVec.ofNat 32 (i 1).val) 0#32) (Scalar.cmpi .eq (BitVec.ofNat 32 (i 2).val) 0#32))) 0#32 = 1#1

/-- Over the 4 x 4 x 4 grid in row-major order the condition holds exactly at the first of each batch's 16 points. -/
theorem resetCond_iff : ∀ t : Fin cfg0.N, resetCond (grid0.coords t) ↔ t.val % 16 = 0 :=
  (by decide +kernel : ∀ t : Fin grid0.N, resetCond (grid0.coords t) ↔ t.val % 16 = 0)

set_option maxHeartbeats 1000000 in
/-- RESET: from the four input buffers at `x0 … x3` and the accumulator buffer at anything, the body returns with the
    inputs as they were and the accumulator buffer written with the pieces `L` (the zero store, then the sum store). -/
noncomputable def runReset (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : resetCond i)
    (x0 x1 x2 x3 : Vec F S1x1024x128 .f32) :
    { L : List (View.Piece (Elt F) S1x1x1 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare x3 ∗ (∃ d, owns (c : Thread nD τ) a7 fullShare d)
            ∗ (iprop(owns (c : Thread nD τ) a3 fullShare x0 ∗ owns (c : Thread nD τ) a4 fullShare x1 ∗ owns (c : Thread nD τ) a5 fullShare x2
                ∗ owns (c : Thread nD τ) a6 fullShare x3
                ∗ (∃ f, a7.view.loc (c : Thread nD τ) ↦[a7.view.set]{fullShare} a7.view.writes (Elt F) f L)) -∗ K ⟨⟩))
          ⊢ wp frame (wpE (defs₀ (F := F)) Variants.none c none) E (cc0__smoothl1_kernel i a3 h3 a4 h4 a5 h5 a6 h6 a7 h7) K } := by
  refine ⟨?_, fun E K => ?run⟩
  case run =>
    simp only [cc0__smoothl1_kernel_eq_skeleton]; unfold cc0__smoothl1_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := h3.eq_unread hf0
    obtain rfl := h4.eq_unread hf1
    obtain rfl := h5.eq_unread hf2
    obtain rfl := h6.eq_unread hf3
    sl_exec (disch := first | exact hc)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact H4

set_option maxHeartbeats 1000000 in
/-- CARRY: the same from the accumulator buffer at `xo`: the body returns with it written with the pieces `L`
    (the sum store alone). -/
noncomputable def runCarry (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : ¬resetCond i)
    (x0 x1 x2 x3 : Vec F S1x1024x128 .f32) (xo : Vec F S1x1x1 .f32) :
    { L : List (View.Piece (Elt F) S1x1x1 .f32) //
      ∀ (E : Set ℕ) (K : PUnit → sProp 𝕄),
        iprop(owns (c : Thread nD τ) a3 fullShare x0 ∗ owns (c : Thread nD τ) a4 fullShare x1 ∗ owns (c : Thread nD τ) a5 fullShare x2
            ∗ owns (c : Thread nD τ) a6 fullShare x3 ∗ owns (c : Thread nD τ) a7 fullShare xo
            ∗ (iprop(owns (c : Thread nD τ) a3 fullShare x0 ∗ owns (c : Thread nD τ) a4 fullShare x1 ∗ owns (c : Thread nD τ) a5 fullShare x2
                ∗ owns (c : Thread nD τ) a6 fullShare x3
                ∗ (∃ f, a7.view.loc (c : Thread nD τ) ↦[a7.view.set]{fullShare} a7.view.writes (Elt F) f L)) -∗ K ⟨⟩))
          ⊢ wp frame (wpE (defs₀ (F := F)) Variants.none c none) E (cc0__smoothl1_kernel i a3 h3 a4 h4 a5 h5 a6 h6 a7 h7) K } := by
  refine ⟨?_, fun E K => ?run⟩
  case run =>
    simp only [cc0__smoothl1_kernel_eq_skeleton]; unfold cc0__smoothl1_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := h3.eq_unread hf0
    obtain rfl := h4.eq_unread hf1
    obtain rfl := h5.eq_unread hf2
    obtain rfl := h6.eq_unread hf3
    obtain rfl := h7.eq_unread hf4
    sl_exec (disch := first | exact hc)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    iexists _; iexact H4

end Cert.KernelIdeal.Hand

end
-- ==== Proof.BodyValue.lean ====
/-
  What the body leaves in the accumulator's buffer, as one value.

  In both control cases the last store writes the whole one-element buffer, so the buffer ends at that store's
  payload: the accumulator the body loaded (the zero just stored, or what the buffer held) plus the tile's total of the
  four blocks the body loaded. The loads read what the buffers hold.
-/
import proofs.«163193_j27479200759850_1_alg».proof.Proof.BodyRuns
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One staging buffer of the accumulator window, through which its contents are stated (any would do: the contents
    are read back through the same view they are written through). -/
abbrev VO : View sig .tc .vmem S1x1x1 .f32 := (Memref.whole cc0_stg4_0 : Memref sig .tc .vmem S1x1x1 .f32).view

/-- All three offsets of the accumulator's (and the inputs') whole-block rectangle are zero. -/
theorem offsets_zero : (![0, 0, 0] : Fin 3 → ℕ) = fun _ => 0 := by funext a; fin_cases a <;> rfl

/-- RESET's two stores tile the one-element block, so they cover it. -/
theorem coverReset (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : resetCond i)
    (x0 x1 x2 x3 : Vec F S1x1024x128 .f32) (y : S1x1x1.Idx) :
    ∃ pc ∈ (runReset c i a3 h3 a4 h4 a5 h5 a6 h6 a7 h7 hc x0 x1 x2 x3).1, y ∈ pc.1.set :=
  View.cover_of_tiledL (runReset c i a3 h3 a4 h4 a5 h5 a6 h6 a7 h7 hc x0 x1 x2 x3).1 S1x1x1.size (by sl_kernel_rfl) y

/-- What RESET leaves in the accumulator's buffer: its pieces read back. -/
def outReset (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : resetCond i)
    (x0 x1 x2 x3 : Vec F S1x1024x128 .f32) : Vec F S1x1x1 .f32 :=
  VO.read (Elt F) (VO.writes (Elt F) VO.junk (runReset c i a3 h3 a4 h4 a5 h5 a6 h6 a7 h7 hc x0 x1 x2 x3).1)

/-- It is the reset value (zero) plus the tile's total. -/
theorem outReset_eq (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : resetCond i)
    (x0 x1 x2 x3 : Vec F S1x1024x128 .f32) :
    outReset c i a3 h3 a4 h4 a5 h5 a6 h6 a7 h7 hc x0 x1 x2 x3 = k0_pay1 (k0_pay3 (k0_pay2 (F := F))) (k0_pay4 x0 x1 x2 x3) := by
  unfold outReset
  rw [View.read_writes_eq_canon _ _ _ (coverReset c i a3 h3 a4 h4 a5 h5 a6 h6 a7 h7 hc x0 x1 x2 x3)]
  unfold runReset
  dsimp only
  rw [View.canon_cons_unit_zero offsets_zero]
  sl_unfold_words
  rw [View.readCov_unit_zero _ offsets_zero]
  simp only [View.readAt_eq_ld, Memref.IsWhole.read_unread, View.ld_unit_zero (S := S1x1024x128) offsets_zero]

/-- CARRY's one store covers the one-element block. -/
theorem coverCarry (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : ¬resetCond i)
    (x0 x1 x2 x3 : Vec F S1x1024x128 .f32) (xo : Vec F S1x1x1 .f32) (y : S1x1x1.Idx) :
    ∃ pc ∈ (runCarry c i a3 h3 a4 h4 a5 h5 a6 h6 a7 h7 hc x0 x1 x2 x3 xo).1, y ∈ pc.1.set :=
  View.cover_of_tiledL (runCarry c i a3 h3 a4 h4 a5 h5 a6 h6 a7 h7 hc x0 x1 x2 x3 xo).1 S1x1x1.size (by sl_kernel_rfl) y

/-- What CARRY leaves in the accumulator's buffer. -/
def outCarry (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : ¬resetCond i)
    (x0 x1 x2 x3 : Vec F S1x1024x128 .f32) (xo : Vec F S1x1x1 .f32) : Vec F S1x1x1 .f32 :=
  VO.read (Elt F) (VO.writes (Elt F) VO.junk (runCarry c i a3 h3 a4 h4 a5 h5 a6 h6 a7 h7 hc x0 x1 x2 x3 xo).1)

/-- It is what the buffer held plus the tile's total. -/
theorem outCarry_eq (c : Dev nD) (i : grid0.Coords)
    (a3 : Memref sig .tc .vmem S1x1024x128 .f32) (h3 : a3.IsWhole) (a4 : Memref sig .tc .vmem S1x1024x128 .f32) (h4 : a4.IsWhole)
    (a5 : Memref sig .tc .vmem S1x1024x128 .f32) (h5 : a5.IsWhole) (a6 : Memref sig .tc .vmem S1x1024x128 .f32) (h6 : a6.IsWhole)
    (a7 : Memref sig .tc .vmem S1x1x1 .f32) (h7 : a7.IsWhole) (hc : ¬resetCond i)
    (x0 x1 x2 x3 : Vec F S1x1024x128 .f32) (xo : Vec F S1x1x1 .f32) :
    outCarry c i a3 h3 a4 h4 a5 h5 a6 h6 a7 h7 hc x0 x1 x2 x3 xo = k0_pay1 (k0_pay3 xo) (k0_pay4 x0 x1 x2 x3) := by
  unfold outCarry
  rw [View.read_writes_eq_canon _ _ _ (coverCarry c i a3 h3 a4 h4 a5 h5 a6 h6 a7 h7 hc x0 x1 x2 x3 xo)]
  unfold runCarry
  dsimp only
  rw [View.canon_cons_unit_zero offsets_zero]
  sl_unfold_words
  simp only [View.readAt_eq_ld, Memref.IsWhole.read_unread, View.ld_unit_zero (S := S1x1024x128) offsets_zero,
    View.ld_unit_zero (S := S1x1x1) offsets_zero]

end Cert.KernelIdeal.Hand

end
-- ==== Proof.PointData.lean ====
/-
  The pipeline's proof data: what every staging buffer holds after the body at every grid point.

  The four input windows read row blocks of the two arrays of unit differences (windows 0 and 1 both read the first
  array, at row blocks i and j; windows 2 and 3 the second): the body only reads them, so each holds its block at
  every point, fetched there or carried over. The output window is the one-element accumulator: after point t it holds
  the previous point's value (or the reset value, at the first point of a batch) plus the tile's total, a recursion on
  the point. It is written back to the [4,1,1] array only at the last point of each batch, so between those points the
  next point finds what this one left.
-/
import proofs.«163193_j27479200759850_1_alg».proof.Proof.BodyValue

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers when the region is entered -/

/-- Core `c`'s buffers as launched, -/
abbrev V0 (c : Dev nD) : Valuation τ sig (Elt F) := fun b => m ((c : Dev nD), b)
/-- and after each of the five stretches of host lines before the region. -/
abbrev V1 (c : Dev nD) : Valuation τ sig (Elt F) := StableHlo.after (hostOps0 (F := F)) (V0 m c)
abbrev V2 (c : Dev nD) : Valuation τ sig (Elt F) := StableHlo.after (hostOps0_1 (F := F)) (V1 m c)
abbrev V3 (c : Dev nD) : Valuation τ sig (Elt F) := StableHlo.after (hostOps0_2 (F := F)) (V2 m c)
abbrev V4 (c : Dev nD) : Valuation τ sig (Elt F) := StableHlo.after (hostOps0_3 (F := F)) (V3 m c)
abbrev V5 (c : Dev nD) : Valuation τ sig (Elt F) := StableHlo.after (hostOps0_4 (F := F)) (V4 m c)
/-- The region-entry contents of a TensorCore buffer. -/
abbrev V (c : Dev nD) (b : Ref sig .tc) : Buf (Elt F) ((c : Thread nD τ).loc b) := V5 m c b

/-! ## Blocks and the accumulator -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- One point's update of the accumulator: the value found, plus the total of the tile the point's four blocks make. -/
def tileStep (c : Dev nD) (t : Fin cfg0.N) (cur : Vec F S1x1x1 .f32) : Vec F S1x1x1 .f32 :=
  k0_pay1 (k0_pay3 cur) (k0_pay4 (iblk m c 0 t) (iblk m c 1 t) (iblk m c 2 t) (iblk m c 3 t))

/-- The accumulator after the body at position `n`: at the first point of a batch (n a multiple of 16) the update of
    the reset value, else the update of what position n - 1 left. -/
def accAt (c : Dev nD) : (n : ℕ) → n < cfg0.N → Vec F S1x1x1 .f32
  | 0, hn => tileStep m c ⟨0, hn⟩ (k0_pay2 (F := F))
  | n + 1, hn =>
    if (n + 1) % 16 = 0 then tileStep m c ⟨n + 1, hn⟩ (k0_pay2 (F := F))
    else tileStep m c ⟨n + 1, hn⟩ (accAt c n (Nat.lt_of_succ_lt hn))

theorem accAt_reset (c : Dev nD) (t : Fin cfg0.N) (h0 : t.val % 16 = 0) :
    accAt m c t.val t.isLt = tileStep m c t (k0_pay2 (F := F)) := by
  obtain ⟨n, hn⟩ := t
  cases n with
  | zero => exact rfl
  | succ n => exact (if_pos h0).trans rfl

theorem accAt_carry (c : Dev nD) (t : Fin cfg0.N) (h0 : ¬t.val % 16 = 0) :
    accAt m c t.val t.isLt = tileStep m c t (accAt m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (if_neg h0).trans rfl

/-! ## The proof data -/

/-- On core `c`: the arrays as the region finds them; after the body each input's buffer at its block and the
    accumulator's at `accAt`; the invariant the scoped rest and the generator register; nothing owed. The two
    windows on one array hold it at the two halves of the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => accAt m c t.val t.isLt
  Φ _ := Pipeline.ΦA spec0 c
  q w := match w with
    | ⟨0, _⟩ => PosShare.left fullShare
    | ⟨1, _⟩ => PosShare.right fullShare
    | ⟨2, _⟩ => PosShare.left fullShare
    | ⟨3, _⟩ => PosShare.right fullShare
    | ⟨4, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = accAt m c t.val t.isLt := by dsimp only [dats]

/-- An input's current staging buffer holds its block at every point, fetched there or not: unfetched, the block
    index has not moved since the point that fetched it. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-- Away from the first point of a batch the accumulator's buffer holds what the point before left: it is not the
    first point, and the buffer was not written back in between (that happens only after the last point of a batch). -/
theorem before_4_carry (c : Dev nD) (t : Fin cfg0.N) (h0 : ¬t.val % 16 = 0) (d) :
    (dats m 0 c).before 4 t d = accAt m c (t.val - 1) (Nat.lt_of_le_of_lt (Nat.sub_le _ _) t.isLt) := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

abbrev ms0 (t : Fin cfg0.N) : Memref sig .tc .vmem S1x1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1024x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1 .f32 := win0_4.stage (cfg0.slots t 4)
abbrev hs4 (t : Fin cfg0.N) : (ms4 t).IsWhole := hstage0_4 ((cfg0.slots t 4).cast nbuf0_4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t))

set_option maxHeartbeats 1000000 in
/-- The body at any point. The inputs' buffers hold their blocks; the point is the first of its batch or not; in the
    second case the accumulator's buffer holds what the point before left; the case's run applies, and what it leaves
    in the accumulator's buffer is the point's `accAt`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4]
  by_cases h0 : t.val % 16 = 0
  · rw [accAt_reset m c t h0]
    unfold tileStep
    rw [← outReset_eq c (grid0.coords t) (ms0 t) (hs0 t) (ms1 t) (hs1 t) (ms2 t) (hs2 t) (ms3 t) (hs3 t) (ms4 t) (hs4 t) ((resetCond_iff t).mpr h0)]
    unfold outReset
    iintro ⟨HΦ, Ho, ⟨%d0, H0⟩, ⟨%d1, H1⟩, ⟨%d2, H2⟩, ⟨%d3, H3⟩, ⟨%d4, H4⟩⟩
    iapply ((runReset c (grid0.coords t) _ _ _ _ _ _ _ _ _ _ ((resetCond_iff t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverReset c _ _ _ _ _ _ _ _ _ _ _ _ _ _ _ _)
  · rw [accAt_carry m c t h0]
    simp only [before_4_carry m c t h0]
    unfold tileStep
    rw [← outCarry_eq c (grid0.coords t) (ms0 t) (hs0 t) (ms1 t) (hs1 t) (ms2 t) (hs2 t) (ms3 t) (hs3 t) (ms4 t) (hs4 t) (fun h => h0 ((resetCond_iff t).mp h))]
    unfold outCarry
    iintro ⟨HΦ, Ho, ⟨%d0, H0⟩, ⟨%d1, H1⟩, ⟨%d2, H2⟩, ⟨%d3, H3⟩, ⟨%d4, H4⟩⟩
    iapply ((runCarry c (grid0.coords t) _ _ _ _ _ _ _ _ _ _ (fun h => h0 ((resetCond_iff t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (coverCarry c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.Shares.lean ====
/-
  One array read through two windows.

  The region is handed three distinct array buffers: the first array of unit differences (windows 0 and 1 read it),
  the second (windows 2 and 3) and the [4,1,1] result (window 4 writes it). The pipeline wants one holding per
  window. A buffer held whole at the full share is the same as two holdings at the two halves of the full share, at
  the same contents; so the three buffers make the five windows' holdings, and the five make the three back.
-/
import proofs.«163193_j27479200759850_1_alg».proof.Proof.PointData
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs)

variable (m : (ℓ : Loc nD τ sig) → Buf (Elt F) ℓ)

/-- The distinct buffers behind the five windows' arrays. -/
theorem arrRefs_eq : (Finset.univ.image (arrRef spec0)) = [main_v10, main_v21, main_v22].toFinset := by decide

/-- The three buffers, one by one. -/
theorem arrBufs_eq (c : Dev nD) (Wf : (b : Ref sig .tc) → Buf (Elt F) ((c : Thread nD τ).loc b)) :
    (arrBufs spec0 c Wf : sProp 𝕄)
      = iprop((((c : Thread nD τ).loc main_v10) ↦{fullShare} Wf main_v10) ∗ (((c : Thread nD τ).loc main_v21) ↦{fullShare} Wf main_v21)
          ∗ (((c : Thread nD τ).loc main_v22) ↦{fullShare} Wf main_v22)) :=
  bigSep_eq_bigSepL_of_eq [main_v10, main_v21, main_v22] arrRefs_eq (by decide) _

/-- The five windows' holdings, one by one: each array a whole buffer, at its window's share. -/
theorem arrays_eq5 (c : Dev nD) (Fa : (w : Fin cfg0.W) → Buf (Elt F) ((cfg0.win w).arr.view.loc (c : Thread nD τ))) :
    ((dats m 0 c).arrays Fa : sProp 𝕄)
      = iprop((((c : Thread nD τ).loc main_v10) ↦{PosShare.left fullShare} Fa 0) ∗ (((c : Thread nD τ).loc main_v10) ↦{PosShare.right fullShare} Fa 1)
          ∗ (((c : Thread nD τ).loc main_v21) ↦{PosShare.left fullShare} Fa 2) ∗ (((c : Thread nD τ).loc main_v21) ↦{PosShare.right fullShare} Fa 3)
          ∗ (((c : Thread nD τ).loc main_v22) ↦{fullShare} Fa 4)) := by
  unfold Dat.arrays
  rw [bigSep_congr (Ψ := fun w : Fin cfg0.W => (((c : Thread nD τ).loc (arrRef spec0 w)) ↦{(dats m 0 c).share w} Fa w : sProp 𝕄))
    (fun w _ => by rw [(arr_whole0 w).set_eq_univ])]
  rw [bigSep_W0]
  rfl

/-- The three buffers whole at `Wf` yield the five windows' holdings at contents that agree with `Wf`. -/
theorem arrays_of_arrBufs (c : Dev nD) (Wf : (b : Ref sig .tc) → Buf (Elt F) ((c : Thread nD τ).loc b))
    (Fa : (w : Fin cfg0.W) → Buf (Elt F) ((cfg0.win w).arr.view.loc (c : Thread nD τ)))
    (h0 : Fa 0 = Wf main_v10) (h1 : Fa 1 = Wf main_v10) (h2 : Fa 2 = Wf main_v21) (h3 : Fa 3 = Wf main_v21) (h4 : Fa 4 = Wf main_v22) :
    (arrBufs spec0 c Wf : sProp 𝕄) ⊢ (dats m 0 c).arrays Fa := by
  rw [arrBufs_eq, arrays_eq5, h0, h1, h2, h3, h4]
  iintro ⟨H10, H21, H22⟩
  ihave Ha := (pointsTo_share (PosShare.mem_left_op_right fullShare)).1 $$ H10
  ihave Hb := (pointsTo_share (PosShare.mem_left_op_right fullShare)).1 $$ H21
  icases Ha with ⟨Ha0, Ha1⟩
  icases Hb with ⟨Hb0, Hb1⟩
  isplitl [Ha0]; · iexact Ha0
  isplitl [Ha1]; · iexact Ha1
  isplitl [Hb0]; · iexact Hb0
  isplitl [Hb1]; · iexact Hb1
  iexact H22

/-- And back: the five holdings, the two on each shared array at the same contents, make the three buffers whole. -/
theorem arrBufs_of_arrays (c : Dev nD) (Wf : (b : Ref sig .tc) → Buf (Elt F) ((c : Thread nD τ).loc b))
    (Fa : (w : Fin cfg0.W) → Buf (Elt F) ((cfg0.win w).arr.view.loc (c : Thread nD τ)))
    (h0 : Fa 0 = Wf main_v10) (h1 : Fa 1 = Wf main_v10) (h2 : Fa 2 = Wf main_v21) (h3 : Fa 3 = Wf main_v21) (h4 : Fa 4 = Wf main_v22) :
    ((dats m 0 c).arrays Fa : sProp 𝕄) ⊢ arrBufs spec0 c Wf := by
  rw [arrBufs_eq, arrays_eq5, h0, h1, h2, h3, h4]
  iintro ⟨Ha0, Ha1, Hb0, Hb1, H22⟩
  isplitl [Ha0 Ha1]
  · iapply (pointsTo_share (PosShare.mem_left_op_right fullShare)).2
    isplitl [Ha0]; · iexact Ha0
    iexact Ha1
  isplitl [Hb0 Hb1]
  · iapply (pointsTo_share (PosShare.mem_left_op_right fullShare)).2
    isplitl [Hb0]; · iexact Hb0
    iexact Hb1
  iexact H22

end Cert.KernelIdeal.Hand

end
-- ==== Proof.Launch.lean ====
/-
  The launch: @main as seven segments.

  @main is five stretches of host lines (they build the two arrays of unit differences), the kernel region, and a last
  stretch of host lines (the sum of the four batch totals, divided by 2^26). The host lines run over the core's
  unscoped buffers held whole at a valuation, each stretch taking the valuation to its own result. The region is
  entered by splitting off the three array buffers (two of them shared by two windows each, so held by halves) and
  left by putting them back, the [4,1,1] result now at what the pipeline's proof data computes. At the end every
  unscoped buffer is read back at the final valuation: the result buffer, and both arguments.
-/
import proofs.«163193_j27479200759850_1_alg».proof.Proof.Shares
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest ucRefs)

variable (m : (ℓ : Loc nD τ sig) → Buf (Elt F) ℓ) (ρ : Dev nD → PrngReg)

/-- The pipeline library's algebra is the whole of the certificate's. -/
abbrev EP : Emb (UR sig nD τ) (MT nD τ sig Unit (Elt F) ℕ (UR sig nD τ) ℕ) := emb₁
abbrev L : GSem nD τ sig → Finset Unit := fun _ => ∅
abbrev lv : GSem nD τ sig → Unit → ℕ := fun _ _ => 0
abbrev adm : (p : Fin 1) → (pcfgs (F := F) p).Adm := fun p => (cfgs p).toPCfg_adm
abbrev 𝒱₀ : Variants := Variants.none

/-- What rides beside the buffers: the core owing nothing, and its generator register at some state. -/
abbrev R (c : Dev nD) : sProp 𝕄 :=
  iprop((∃ W, owes (c : Thread nD τ) (0 : CellTallies nD τ sig Unit) W) ∗ ∃ r, prngReg c r)

/-! ## The valuations after the region -/

/-- The [4,1,1] result array after the region, as the pipeline's proof data computes it. -/
abbrev outFinal (c : Dev nD) : Buf (Elt F) ((c : Thread nD τ).loc main_v22) := (dats m 0 c).arrAt 4 cfg0.N

/-- The buffers when the region is left: as entered, the result array at `outFinal`. -/
def W6 (c : Dev nD) : Valuation τ sig (Elt F) := Function.update (V5 m c) (Proc.devRef .tc main_v22) (outFinal m c)
/-- The buffers at the end: the last stretch of host lines has run. -/
abbrev W7 (c : Dev nD) : Valuation τ sig (Elt F) := StableHlo.after (hostOps1 (F := F)) (W6 m c)

theorem W6_v22 (c : Dev nD) : W6 m c (Proc.devRef .tc main_v22) = outFinal m c := Function.update_self ..
theorem W6_of_ne (c : Dev nD) (b : Ref sig .tc) (h : b ≠ main_v22) : W6 m c (Proc.devRef .tc b) = V m c b :=
  Function.update_of_ne (StableHlo.devRef_ne_of_ne h) ..

/-! ## The host segments -/

abbrev hostSeg (ops : List (HloOp τ sig (Elt F))) (hsub : ops.Forall fun op => op.bufs ⊆ StableHlo.tcRefs τ sig)
    (hf : ∀ op ∈ ops, op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (ucRefs τ sig) ops (fun op h => Pipeline.sub_ucRefs op ((List.forall_iff_forall_mem.mp hsub) op h)) hf W R

def seg0 := hostSeg (F := F) hostOps0 hostOps0_sub (by intro _ h; (repeat (cases h with | head => rfl | tail _ h => ?_)); exact nomatch h) (V0 m)
def seg1 := hostSeg (F := F) hostOps0_1 hostOps0_1_sub (by intro _ h; (repeat (cases h with | head => rfl | tail _ h => ?_)); exact nomatch h) (V1 m)
def seg2 := hostSeg (F := F) hostOps0_2 hostOps0_2_sub (by intro _ h; (repeat (cases h with | head => rfl | tail _ h => ?_)); exact nomatch h) (V2 m)
def seg3 := hostSeg (F := F) hostOps0_3 hostOps0_3_sub (by intro _ h; (repeat (cases h with | head => rfl | tail _ h => ?_)); exact nomatch h) (V3 m)
def seg4 := hostSeg (F := F) hostOps0_4 hostOps0_4_sub (by intro _ h; (repeat (cases h with | head => rfl | tail _ h => ?_)); exact nomatch h) (V4 m)
def seg6 := hostSeg (F := F) hostOps1 hostOps1_sub (by intro _ h; (repeat (cases h with | head => rfl | tail _ h => ?_)); exact nomatch h) (W6 m)

/-! ## The region -/

/-- Off the three array buffers the two valuations agree: the unscoped rest is the same holding. -/
theorem unscopedRest_W6 (c : Dev nD) :
    (unscopedRest spec0 c (fun b => W6 m c (Proc.devRef .tc b)) : sProp 𝕄) = unscopedRest spec0 c (V m c) := by
  unfold unscopedRest
  refine bigSep_congr fun b hb => ?_
  dsimp only
  rw [W6_of_ne m c b fun e => (Finset.mem_sdiff.mp hb).2 (e ▸ (by decide : main_v22 ∈ Finset.univ.image (arrRef spec0)))]

set_option backward.isDefEq.respectTransparency.types false in
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (ucRefs τ sig) (V5 m c) ∗ R c)
  post c := iprop(StableHlo.held (c : Thread nD τ) (ucRefs τ sig) (W6 m c) ∗ R c)
  X c := iprop(∃ r, prngReg c r)
  Y c := iprop(∃ r, prngReg c r)
  Z c := unscopedRest spec0 c (V m c)
  hentry c := by
    rw [show StableHlo.held (c : Thread nD τ) (ucRefs τ sig) (V5 m c) = unscopedBufs c (V m c) from (Pipeline.unscopedBufs_held c _).symm,
      Pipeline.unscopedBufs_split₀ cfgs 0 winFacts₀0.arr_unscoped c (V m c)]
    iintro ⟨⟨⟨Harr, Hrest⟩, ⟨HO, Hp⟩⟩, -, -⟩
    imodintro
    isplitl [Harr]
    · iapply (arrays_of_arrBufs m c (V m c) _ rfl rfl rfl rfl rfl); iexact Harr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (ucRefs τ sig) (W6 m c) = unscopedBufs c (fun b => W6 m c (Proc.devRef .tc b)) from (Pipeline.unscopedBufs_held c _).symm,
      Pipeline.unscopedBufs_split₀ cfgs 0 winFacts₀0.arr_unscoped c, unscopedRest_W6]
    have hjoin := arrBufs_of_arrays m c (fun b => W6 m c (Proc.devRef .tc b)) ((dats m 0 c).arrAt · cfg0.N)
      (((dats m 0 c).arrAt_in 0 rfl _).trans ((A_eq m c 0).trans (W6_of_ne m c main_v10 (by decide)).symm))
      (((dats m 0 c).arrAt_in 1 rfl _).trans ((A_eq m c 1).trans (W6_of_ne m c main_v10 (by decide)).symm))
      (((dats m 0 c).arrAt_in 2 rfl _).trans ((A_eq m c 2).trans (W6_of_ne m c main_v21 (by decide)).symm))
      (((dats m 0 c).arrAt_in 3 rfl _).trans ((A_eq m c 3).trans (W6_of_ne m c main_v21 (by decide)).symm))
      (W6_v22 m c).symm
    iintro ⟨Ha, HO, HY, HZ⟩
    imodintro
    isplitl [Ha HZ]
    · isplitl [Ha]
      · iapply hjoin; iexact Ha
      iexact HZ
    isplitl [HO]
    · unfold Pipeline.Dat.owesAt Pipeline.owesWithin
      icases HO with ⟨%W, -, HO⟩; iexists W; iexact HO
    iexact HY

end Cert.KernelIdeal.Hand

end
-- ==== Proof.Run.lean ====
/-
  The run of @main: every weakly fair execution terminates, nothing faults, and at the end every unscoped buffer of
  the core holds what the last valuation says — the composition of the host lines' functions and the pipeline's
  account of the result array.
-/
import proofs.«163193_j27479200759850_1_alg».proof.Proof.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (arrRef arrBufs unscopedRest ucRefs)

variable (m : (ℓ : Loc nD τ sig) → Buf (Elt F) ℓ) (ρ : Dev nD → PrngReg)

/-- @main as its seven segments. -/
abbrev segs : List (Pipeline.Seg (pcfgs (F := F)) adm (dats m) () defs₀ 𝒱₀ L lv) :=
  [.host (seg0 m), .host (seg1 m), .host (seg2 m), .host (seg3 m), .host (seg4 m), .region (reg0 m), .host (seg6 m)]

/-- The launch element: the pipeline library's at the staging cells. -/
def u₀ : UR sig nD τ := initOf (Pipeline.cells cfgs cellOf_inj) (Pipeline.launchToks cfgs cellOf_inj)

/-- The physical post: every unscoped buffer at the final valuation. -/
def QM : PUnit × MemSt nD τ sig (Elt F) → Prop := fun r =>
  ∀ c : Dev nD, ∀ b ∈ ucRefs τ sig, r.2.mem ((c : Thread nD τ).1, b) = W7 m c b

set_option backward.isDefEq.respectTransparency.types false in
set_option maxHeartbeats 1000000 in
theorem run_all : θ_run defs (onTc (τ := τ) (main (F := F))) ⟨m, fun _ => 0, ρ⟩ (QM m) :=
  Pipeline.θ_run_regions_kit (pcfgs (F := F)) adm (dats m) () cellOf_inj EP defs₀ 𝒱₀ L lv m ρ main (segs m)
    (fun c Q => by rw [main_chain c, Pipeline.Seg.run_eq_chain]; exact .rfl)
    (by simp only [Pipeline.Seg.pipes_host, Pipeline.Seg.pipes_region, Pipeline.Seg.pipes_nil]; decide)
    (O₀ := 0) (hL := fun _ _ => rfl) (G := fun _ => iprop(emp)) (u₀ := u₀)
    (hu₀ := by
      unfold u₀
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ R c))
    (Tₙ := fun c => iprop(StableHlo.held (c : Thread nD τ) (ucRefs τ sig) (W7 m c) ∗ ∃ r, prngReg c r))
    (hch := ⟨fun _ => .rfl, fun _ => .rfl, fun _ => .rfl, fun _ => .rfl, fun _ => .rfl, fun _ => .rfl, fun _ => .rfl, fun c => by
      show iprop(StableHlo.held (c : Thread nD τ) (ucRefs τ sig) (W7 m c) ∗ R c) ⊢ _
      iintro ⟨Hh, ⟨HO, Hp⟩⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (ucRefs τ sig) (V0 m c)
        from Pipeline.unscopedBufs_held c (V0 m c)]
      iintro ⟨⟨Hh, -, HO, -, Hp, -⟩, -⟩
      imodintro
      isplitl [Hh]; · iexact Hh
      isplitl [HO]; · iexists ∅; iexact HO
      iexists _; iexact Hp)
    (QY := fun c s => ∀ b ∈ ucRefs τ sig, s.mem ((c : Thread nD τ).1, b) = W7 m c b)
    (hfin := fun c s' => by
      iintro ⟨⟨Hh, -⟩, HSI⟩
      imodintro
      unfold StableHlo.held
      iapply (pointsTo_read_all (ucRefs τ sig) (fun b => ((c : Thread nD τ).1, b)) (W7 m c) s')
      isplitl [Hh] <;> iassumption)
    (hQ := fun _ h => h)

/-! ## The arguments are never written -/

/-- No host line and no window of the region writes the first argument: the final valuation has it as launched. -/
theorem W7_arg0 (c : Dev nD) : W7 m c (Proc.devRef .tc main_arg0) = m ((c : Thread nD τ).loc main_arg0) := by
  show StableHlo.after (hostOps1 (F := F)) (W6 m c) (Proc.devRef .tc main_arg0) = _
  after_results_simp
  rw [W6_of_ne m c main_arg0 (by decide)]
  show StableHlo.after (hostOps0_4 (F := F)) (StableHlo.after (hostOps0_3 (F := F)) (StableHlo.after (hostOps0_2 (F := F))
    (StableHlo.after (hostOps0_1 (F := F)) (StableHlo.after (hostOps0 (F := F)) (V0 m c))))) (Proc.devRef .tc main_arg0) = _
  after_results_simp

/-- Nor the second. -/
theorem W7_arg1 (c : Dev nD) : W7 m c (Proc.devRef .tc main_arg1) = m ((c : Thread nD τ).loc main_arg1) := by
  show StableHlo.after (hostOps1 (F := F)) (W6 m c) (Proc.devRef .tc main_arg1) = _
  after_results_simp
  rw [W6_of_ne m c main_arg1 (by decide)]
  show StableHlo.after (hostOps0_4 (F := F)) (StableHlo.after (hostOps0_3 (F := F)) (StableHlo.after (hostOps0_2 (F := F))
    (StableHlo.after (hostOps0_1 (F := F)) (StableHlo.after (hostOps0 (F := F)) (V0 m c))))) (Proc.devRef .tc main_arg1) = _
  after_results_simp

theorem arg0_mem : Proc.devRef (τ := τ) .tc main_arg0 ∈ ucRefs τ sig := by decide
theorem arg1_mem : Proc.devRef (τ := τ) .tc main_arg1 ∈ ucRefs τ sig := by decide
theorem v24_mem : Proc.devRef (τ := τ) .tc main_v24 ∈ ucRefs τ sig := by decide

/-- The frame: @main runs to the end, nothing faults, and both argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c _ arg0_mem).trans (W7_arg0 m c), (h c _ arg1_mem).trans (W7_arg1 m c)⟩) (run_all m ρ)

end Cert.KernelIdeal.Hand

end
-- ==== Proof.Spec.lean ====
/-
  What the two programs compute, stated once over arbitrary arrays.

  Both programs first turn each input x : [4, 64, 128] into the array of unit pairwise differences
  u : [4, 4096, 128] (row 64 p + q of batch b is (x[b,p] - x[b,q]) / max(|x[b,p] - x[b,q]|, eps)); call the two
  results `sd` (from the first input) and `td` (from the second). Everything after that is a function of `sd`, `td`.

  The reference forms the two Gram planes S[b,k,l] = sum_d sd[b,k,d] sd[b,l,d] and T likewise, the difference
  D = S - T, the smooth-L1 value  loss = if |D| < 1 then (1/2 D) D else |D| - 1/2  at every (b,k,l), and
  returns (0 + the sum of loss over all 4 * 4096 * 4096 entries) / 2^26.

  The kernel cuts each 4096 x 4096 plane into a 4 x 4 arrangement of 1024 x 1024 tiles. At grid point (b, i, j) it
  reads row blocks i and j of batch b of `sd` and of `td`, forms the tile of loss values from them, adds the
  tile's total to a one-element accumulator for batch b (reset to 0 at i = j = 0), and after the 16 tiles of a
  batch writes the accumulator to entry b of a [4, 1, 1] array. The host then returns
  (0 + the sum of those 4 entries) / 2^26.

  This module names the pieces: a row block, a tile's total (through the body's own payload term), the
  accumulator after k tiles, the [4,1,1] array of batch totals, and the reference's loss plane.
-/
import proofs.«163193_j27479200759850_1_alg».proof.Proof.Gen.KernelIdeal.Skeleton
import proofs.«163193_j27479200759850_1_alg».proof.Proof.Gen.ReferenceIdeal
import Idealize.ShloMosaic.Lib.ValueIdx

noncomputable section

namespace Cert.Bridge

open Idealize.ShloMosaic Idealize.ShloMosaic.ValueIdx

variable {F : FTy → Type} [FloatOps F]

/-- Rows 1024 i, …, 1024 i + 1023 of batch `b` of a [4, 4096, 128] array, as a [1, 1024, 128] block. -/
def rowBlock (X : Cert.KernelIdeal.S4x4096x128.Idx → F .f32) (b i : Fin 4) : Vec F Cert.KernelIdeal.S1x1024x128 .f32 :=
  fun y => X (ix3 b (⟨i.val * 1024 + (y 1).val, by have h1 : (y 1).val < 1024 := (y 1).isLt; have := i.isLt; omega⟩ : Fin 4096)
    (⟨(y 2).val, (y 2).isLt⟩ : Fin 128))

/-- The total of tile (i, j) of batch `b`: the body's arithmetic applied to the four row blocks it loads there. -/
def tileTotal (sd td : Cert.KernelIdeal.S4x4096x128.Idx → F .f32) (b i j : Fin 4) : FVec F Cert.KernelIdeal.S1x1x1 .f32 :=
  Cert.KernelIdeal.Gen.k0_pay4 (rowBlock sd b i) (rowBlock sd b j) (rowBlock td b i) (rowBlock td b j)

/-- Tile number `k` of a batch, in the order the grid visits them: (k / 4, k mod 4). -/
def tileRow (k : Nat) : Fin 4 := ⟨k / 4 % 4, Nat.mod_lt _ (by decide)⟩
def tileCol (k : Nat) : Fin 4 := ⟨k % 4, Nat.mod_lt _ (by decide)⟩

/-- The accumulator of batch `b` after its first `k` tiles: the reset value, then one tile total added per tile. -/
def accum (sd td : Cert.KernelIdeal.S4x4096x128.Idx → F .f32) (b : Fin 4) : Nat → FVec F Cert.KernelIdeal.S1x1x1 .f32
  | 0 => Cert.KernelIdeal.Gen.k0_pay2
  | k + 1 => Cert.KernelIdeal.Gen.k0_pay1 (Cert.KernelIdeal.Gen.k0_pay3 (accum sd td b k)) (tileTotal sd td b (tileRow k) (tileCol k))

/-- The [4, 1, 1] array the region leaves: entry `b` is batch `b`'s accumulator after all 16 tiles. -/
def batchTotals (sd td : Cert.KernelIdeal.S4x4096x128.Idx → F .f32) : Cert.KernelIdeal.S4x1x1.Idx → F .f32 :=
  fun y => accum sd td (⟨(y 0).val, (y 0).isLt⟩ : Fin 4) 16 (ix3 (0 : Fin 1) (0 : Fin 1) (0 : Fin 1))

/-- What the kernel's @main returns from the two arrays of unit differences: (0 + the sum of the batch totals) / 2^26. -/
def kernelResult (sd td : Cert.KernelIdeal.S4x4096x128.Idx → F .f32) : FVec F Cert.KernelIdeal.S_ .f32 :=
  Host.divf (Host.reduceAdd (batchTotals sd td) (constant Cert.KernelIdeal.S_ .f32 0x00000000#32)
      Cert.KernelIdeal.Facts₀.reducesTo_S4x1x1_S_d0_1_2 Cert.KernelIdeal.Facts₀.h_S_)
    (constant Cert.KernelIdeal.S_ .f32 0x4C800000#32)

/-- The reference's loss plane: smooth-L1 of the difference of the two Gram planes, entry by entry. -/
def lossPlane (sd td : Cert.ReferenceIdeal.S4x4096x128.Idx → F .f32) : FVec F Cert.ReferenceIdeal.S4x4096x4096 .f32 :=
  let D : FVec F Cert.ReferenceIdeal.S4x4096x4096 .f32 :=
    subf (Host.dotGeneral Cert.ReferenceIdeal.dot_S4x4096x128_S4x4096x128_S4x4096x4096_2_2_1_1_0_0 none sd sd)
      (Host.dotGeneral Cert.ReferenceIdeal.dot_S4x4096x128_S4x4096x128_S4x4096x4096_2_2_1_1_0_0 none td td)
  select (cmpf .olt (Host.absf D)
      (broadcastInDim Cert.ReferenceIdeal.S4x4096x4096 ![] Cert.ReferenceIdeal.Facts₀.bcast_S_S4x4096x4096 (constant Cert.ReferenceIdeal.S_ .f32 0x3F800000#32)))
    (mulf (mulf (broadcastInDim Cert.ReferenceIdeal.S4x4096x4096 ![] Cert.ReferenceIdeal.Facts₀.bcast_S_S4x4096x4096 (constant Cert.ReferenceIdeal.S_ .f32 0x3F000000#32)) D) D)
    (subf (Host.absf D)
      (broadcastInDim Cert.ReferenceIdeal.S4x4096x4096 ![] Cert.ReferenceIdeal.Facts₀.bcast_S_S4x4096x4096 (constant Cert.ReferenceIdeal.S_ .f32 0x3F000000#32)))

/-- What the reference's @main returns from the two arrays of unit differences: (0 + the sum of the loss plane) / 2^26. -/
def referenceResult (sd td : Cert.ReferenceIdeal.S4x4096x128.Idx → F .f32) : FVec F Cert.ReferenceIdeal.S_ .f32 :=
  Host.divf (Host.reduceAdd (lossPlane sd td) (constant Cert.ReferenceIdeal.S_ .f32 0x00000000#32)
      Cert.ReferenceIdeal.Facts₀.reducesTo_S4x4096x4096_S_d0_1_2 Cert.ReferenceIdeal.Facts₀.h_S_)
    (constant Cert.ReferenceIdeal.S_ .f32 0x4C800000#32)

end Cert.Bridge

end
-- ==== Proof.ResultBlocks.lean ====
/-
  The proof data in the specification's words.

  The grid's 64 points in row-major order are (b, i, j) = (t / 16, t / 4 mod 4, t mod 4). The windows' index maps
  send point t to block (b, i, 0) of the first or second array (windows 0 and 2), to block (b, j, 0) (windows 1 and
  3), and to block (b, 0, 0) of the [4,1,1] result (window 4): decided over the 64 points. A block index times the
  block's extent plus the coordinate inside the block is the array coordinate, so the block a window reads at point t
  is the specification's row block, and the accumulator after point t is the specification's accumulator of batch
  t / 16 after t mod 16 + 1 tiles (induction on the point).
-/
import proofs.«163193_j27479200759850_1_alg».proof.Proof.Run
import proofs.«163193_j27479200759850_1_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Bridge

variable (m : (ℓ : Loc nD τ sig) → Buf (Elt F) ℓ)

/-- The two arrays of unit differences, as the region finds them. -/
abbrev sdOf (c : Dev nD) : S4x4096x128.Idx → F .f32 := V m c main_v10
abbrev tdOf (c : Dev nD) : S4x4096x128.Idx → F .f32 := V m c main_v21

/-- The batch a point belongs to. -/
def batchOf (t : Fin cfg0.N) : Fin 4 := ⟨t.val / 16, by have := t.isLt; have : cfg0.N = 64 := N_0; omega⟩

theorem index_0 : ∀ t : Fin cfg0.N, win0_0.index t 0 = t.val / 16 ∧ win0_0.index t 1 = t.val / 4 % 4 ∧ win0_0.index t 2 = 0 :=
  (by decide +kernel : ∀ t : Fin grid0.N, win0_0.index t 0 = t.val / 16 ∧ win0_0.index t 1 = t.val / 4 % 4 ∧ win0_0.index t 2 = 0)

theorem index_1 : ∀ t : Fin cfg0.N, win0_1.index t 0 = t.val / 16 ∧ win0_1.index t 1 = t.val % 4 ∧ win0_1.index t 2 = 0 :=
  (by decide +kernel : ∀ t : Fin grid0.N, win0_1.index t 0 = t.val / 16 ∧ win0_1.index t 1 = t.val % 4 ∧ win0_1.index t 2 = 0)

theorem index_2 : ∀ t : Fin cfg0.N, win0_2.index t 0 = t.val / 16 ∧ win0_2.index t 1 = t.val / 4 % 4 ∧ win0_2.index t 2 = 0 :=
  (by decide +kernel : ∀ t : Fin grid0.N, win0_2.index t 0 = t.val / 16 ∧ win0_2.index t 1 = t.val / 4 % 4 ∧ win0_2.index t 2 = 0)

theorem index_3 : ∀ t : Fin cfg0.N, win0_3.index t 0 = t.val / 16 ∧ win0_3.index t 1 = t.val % 4 ∧ win0_3.index t 2 = 0 :=
  (by decide +kernel : ∀ t : Fin grid0.N, win0_3.index t 0 = t.val / 16 ∧ win0_3.index t 1 = t.val % 4 ∧ win0_3.index t 2 = 0)

theorem index_4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- What a window reads at point t is the row block the specification names. -/
theorem iblk_0 (c : Dev nD) (t : Fin cfg0.N) :
    (iblk m c 0 t : Vec F S1x1024x128 .f32) = rowBlock (sdOf m c) (batchOf t) (tileRow (t.val % 16)) := by
  funext y
  unfold iblk rowBlock
  rw [View.read_apply]
  show V m c main_v10 _ = V m c main_v10 _
  congr 1
  funext a
  apply Fin.ext
  have h0 : (y 0).val < 1 := (y 0).isLt
  match a with
  | ⟨0, _⟩ => show win0_0.index t 0 * 1 + 1 * (y 0).val = t.val / 16; rw [(index_0 t).1]; omega
  | ⟨1, _⟩ => show win0_0.index t 1 * 1024 + 1 * (y 1).val = (t.val % 16 / 4 % 4) * 1024 + (y 1).val; rw [(index_0 t).2.1]; omega
  | ⟨2, _⟩ => show win0_0.index t 2 * 128 + 1 * (y 2).val = (y 2).val; rw [(index_0 t).2.2]; omega

theorem iblk_1 (c : Dev nD) (t : Fin cfg0.N) :
    (iblk m c 1 t : Vec F S1x1024x128 .f32) = rowBlock (sdOf m c) (batchOf t) (tileCol (t.val % 16)) := by
  funext y
  unfold iblk rowBlock
  rw [View.read_apply]
  show V m c main_v10 _ = V m c main_v10 _
  congr 1
  funext a
  apply Fin.ext
  have h0 : (y 0).val < 1 := (y 0).isLt
  match a with
  | ⟨0, _⟩ => show win0_1.index t 0 * 1 + 1 * (y 0).val = t.val / 16; rw [(index_1 t).1]; omega
  | ⟨1, _⟩ => show win0_1.index t 1 * 1024 + 1 * (y 1).val = (t.val % 16 % 4) * 1024 + (y 1).val; rw [(index_1 t).2.1]; omega
  | ⟨2, _⟩ => show win0_1.index t 2 * 128 + 1 * (y 2).val = (y 2).val; rw [(index_1 t).2.2]; omega

theorem iblk_2 (c : Dev nD) (t : Fin cfg0.N) :
    (iblk m c 2 t : Vec F S1x1024x128 .f32) = rowBlock (tdOf m c) (batchOf t) (tileRow (t.val % 16)) := by
  funext y
  unfold iblk rowBlock
  rw [View.read_apply]
  show V m c main_v21 _ = V m c main_v21 _
  congr 1
  funext a
  apply Fin.ext
  have h0 : (y 0).val < 1 := (y 0).isLt
  match a with
  | ⟨0, _⟩ => show win0_2.index t 0 * 1 + 1 * (y 0).val = t.val / 16; rw [(index_2 t).1]; omega
  | ⟨1, _⟩ => show win0_2.index t 1 * 1024 + 1 * (y 1).val = (t.val % 16 / 4 % 4) * 1024 + (y 1).val; rw [(index_2 t).2.1]; omega
  | ⟨2, _⟩ => show win0_2.index t 2 * 128 + 1 * (y 2).val = (y 2).val; rw [(index_2 t).2.2]; omega

theorem iblk_3 (c : Dev nD) (t : Fin cfg0.N) :
    (iblk m c 3 t : Vec F S1x1024x128 .f32) = rowBlock (tdOf m c) (batchOf t) (tileCol (t.val % 16)) := by
  funext y
  unfold iblk rowBlock
  rw [View.read_apply]
  show V m c main_v21 _ = V m c main_v21 _
  congr 1
  funext a
  apply Fin.ext
  have h0 : (y 0).val < 1 := (y 0).isLt
  match a with
  | ⟨0, _⟩ => show win0_3.index t 0 * 1 + 1 * (y 0).val = t.val / 16; rw [(index_3 t).1]; omega
  | ⟨1, _⟩ => show win0_3.index t 1 * 1024 + 1 * (y 1).val = (t.val % 16 % 4) * 1024 + (y 1).val; rw [(index_3 t).2.1]; omega
  | ⟨2, _⟩ => show win0_3.index t 2 * 128 + 1 * (y 2).val = (y 2).val; rw [(index_3 t).2.2]; omega

/-- One point's update, in the specification's words. -/
theorem tileStep_eq (c : Dev nD) (t : Fin cfg0.N) (cur : Vec F S1x1x1 .f32) :
    tileStep m c t cur
      = k0_pay1 (k0_pay3 cur) (tileTotal (sdOf m c) (tdOf m c) (batchOf t) (tileRow (t.val % 16)) (tileCol (t.val % 16))) := by
  unfold tileStep tileTotal
  rw [iblk_0, iblk_1, iblk_2, iblk_3]

theorem accum_congr (sd td : S4x4096x128.Idx → F .f32) {b b' : Fin 4} {k k' : ℕ} (hb : b = b') (hk : k = k') :
    accum sd td b k = accum sd td b' k' := by subst hb; subst hk; rfl

/-- The accumulator after position n is batch n / 16's after n mod 16 + 1 tiles. -/
theorem accAt_eq (c : Dev nD) : ∀ (n : ℕ) (h : n < cfg0.N),
    accAt m c n h = accum (sdOf m c) (tdOf m c) (batchOf ⟨n, h⟩) (n % 16 + 1)
  | 0, h => by
    show tileStep m c ⟨0, h⟩ (k0_pay2 (F := F)) = _
    rw [tileStep_eq]
    rfl
  | n + 1, h => by
    show (if (n + 1) % 16 = 0 then tileStep m c ⟨n + 1, h⟩ (k0_pay2 (F := F))
      else tileStep m c ⟨n + 1, h⟩ (accAt m c n (Nat.lt_of_succ_lt h))) = _
    show _ = k0_pay1 (k0_pay3 (accum (sdOf m c) (tdOf m c) (batchOf ⟨n + 1, h⟩) ((n + 1) % 16)))
      (tileTotal (sdOf m c) (tdOf m c) (batchOf ⟨n + 1, h⟩) (tileRow ((n + 1) % 16)) (tileCol ((n + 1) % 16)))
    split
    · next h0 =>
      rw [tileStep_eq, show accum (sdOf m c) (tdOf m c) (batchOf ⟨n + 1, h⟩) ((n + 1) % 16) = k0_pay2 (F := F) from by rw [h0]; rfl]
    · next h0 =>
      rw [tileStep_eq, accAt_eq c n (Nat.lt_of_succ_lt h)]
      exact congrArg (fun z => k0_pay1 (k0_pay3 z) _)
        (accum_congr _ _ (Fin.ext (by show n / 16 = (n + 1) / 16; omega)) (by omega))

end Cert.KernelIdeal.Hand

end
-- ==== Proof.ResultFinal.lean ====
/-
  What @main returns, as a function of the two arguments.

  * The host lines before the region turn an input x into the array of unit pairwise differences: d = x[b,p] - x[b,q]
    for every pair of rows, n = sqrt(sum over the last axis of d * d), and d / max(n, eps), laid out as [4, 4096, 128].
  * The accumulator's block at point t is entry (t / 16, 0, 0) of the [4,1,1] result; it is written back at the last
    point of each batch (t mod 16 = 15), when it holds the batch's accumulator after all 16 tiles; the four
    write-backs cover the four entries. So the result array is the specification's array of batch totals.
  * The host lines after the region return (0 + the sum of that array) / 2^26.
-/
import proofs.«163193_j27479200759850_1_alg».proof.Proof.ResultBlocks
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Bridge
open Idealize.ShloMosaic.Pipeline (ucRefs)

variable (m : (ℓ : Loc nD τ sig) → Buf (Elt F) ℓ) (ρ : Dev nD → PrngReg)

/-! ## The host lines before the region -/

/-- The array of unit pairwise differences of an input. -/
def unitDiffs (x : Vec F S4x64x128 .f32) : FVec F S4x4096x128 .f32 :=
  let d : FVec F S4x64x64x128 .f32 :=
    subf (broadcastInDim S4x64x64x128 ![0, 1, 2, 3] bcast_S4x64x1x128_S4x64x64x128_0_1_2_3 (broadcastInDim S4x64x1x128 ![0, 1, 3] bcast_S4x64x128_S4x64x1x128_0_1_3 x))
      (broadcastInDim S4x64x64x128 ![0, 1, 2, 3] bcast_S4x1x64x128_S4x64x64x128_0_1_2_3 (broadcastInDim S4x1x64x128 ![0, 2, 3] bcast_S4x64x128_S4x1x64x128_0_2_3 x))
  let n : FVec F S4x64x64x1 .f32 :=
    Host.sqrt (broadcastInDim S4x64x64x1 ![0, 1, 2] bcast_S4x64x64_S4x64x64x1_0_1_2
      (Host.reduceAdd (mulf d d) (constant S_ .f32 0x00000000#32) reducesTo_S4x64x64x128_S4x64x64_d3 h_S_))
  shapeCast S4x4096x128
    (Host.divf d (broadcastInDim S4x64x64x128 ![0, 1, 2, 3] bcast_S4x64x64x1_S4x64x64x128_0_1_2_3
      (maximumf n (broadcastInDim S4x64x64x1 ![] bcast_S_S4x64x64x1 (constant S_ .f32 0x2B8CBCCC#32)))))
    shapeCasts_S4x64x64x128_S4x4096x128

set_option maxRecDepth 65536 in
/-- The first array the region reads is the unit differences of the first argument, -/
theorem V_v10 (c : Dev nD) : V m c main_v10 = unitDiffs (m ((c : Thread nD τ).loc main_arg0)) := by
  show StableHlo.after (hostOps0_4 (F := F)) (StableHlo.after (hostOps0_3 (F := F)) (StableHlo.after (hostOps0_2 (F := F))
    (StableHlo.after (hostOps0_1 (F := F)) (StableHlo.after (hostOps0 (F := F)) (V0 m c))))) (Proc.devRef .tc main_v10) = _
  after_results_simp
  rfl

set_option maxRecDepth 65536 in
/-- and the second those of the second. -/
theorem V_v21 (c : Dev nD) : V m c main_v21 = unitDiffs (m ((c : Thread nD τ).loc main_arg1)) := by
  show StableHlo.after (hostOps0_4 (F := F)) (StableHlo.after (hostOps0_3 (F := F)) (StableHlo.after (hostOps0_2 (F := F))
    (StableHlo.after (hostOps0_1 (F := F)) (StableHlo.after (hostOps0 (F := F)) (V0 m c))))) (Proc.devRef .tc main_v21) = _
  after_results_simp
  rfl

/-! ## The result array after the region -/

/-- The one index of the one-element shape. -/
theorem idx111 (y : S1x1x1.Idx) : y = ValueIdx.ix3 (0 : Fin 1) (0 : Fin 1) (0 : Fin 1) := by
  funext d
  apply Fin.ext
  have h0 : (y 0).val < 1 := (y 0).isLt
  have h1 : (y 1).val < 1 := (y 1).isLt
  have h2 : (y 2).val < 1 := (y 2).isLt
  match d with
  | ⟨0, _⟩ => show (y 0).val = 0; omega
  | ⟨1, _⟩ => show (y 1).val = 0; omega
  | ⟨2, _⟩ => show (y 2).val = 0; omega

/-- Entry i of the array of batch totals is batch (i 0)'s accumulator after 16 tiles. -/
theorem batchTotals_apply (sd td : S4x4096x128.Idx → F .f32) (i : S4x1x1.Idx) (b : Fin 4) (hb : (i 0).val = b.val) :
    batchTotals sd td i = accum sd td b 16 (ValueIdx.ix3 (0 : Fin 1) (0 : Fin 1) (0 : Fin 1)) := by
  unfold batchTotals
  exact congrFun (accum_congr sd td (Fin.ext hb) rfl) _

/-- What a write-back writes is the block of the array of batch totals at the point's block index. -/
theorem flushed_eq (c : Dev nD) (t : Fin cfg0.N) (hf : (cfg0.win 4).flush t = true) :
    (dats m 0 c).flushed 4 t = ((cfg0.win 4).blk t).view.read (Elt F) (batchTotals (sdOf m c) (tdOf m c)) := by
  have h15 : t.val % 16 = 15 := (flush0_4 t).mp hf
  show (cfg0.win 4).cut (grid0.coords t) ((dats m 0 c).after 4 t) = _
  rw [after_4, accAt_eq]
  funext y
  rw [View.read_apply]
  have h0 : (y 0).val < 1 := (y 0).isLt
  show accum (sdOf m c) (tdOf m c) (batchOf t) (t.val % 16 + 1) _ = batchTotals (sdOf m c) (tdOf m c) _
  rw [batchTotals_apply (sdOf m c) (tdOf m c) _ (batchOf t)
    (by show win0_4.index t 0 * 1 + 1 * (y 0).val = t.val / 16; rw [(index_4 t).1]; omega), h15]
  exact congrArg _ (idx111 _)

/-- Every entry of the [4,1,1] array is in the block some write-back writes: entry (b, 0, 0) at point 16 b + 15. -/
theorem cover_out (c : Dev nD) (i : ((cfg0.win 4).arr.view.loc (c : Thread nD τ)).2.ty.Idx) :
    ∃ t : Fin cfg0.N, (cfg0.win 4).flush t = true ∧ i ∈ ((cfg0.win 4).blk t).view.set := by
  have hi0 : (i 0 : Nat) < 4 := (i 0).isLt
  have hi1 : (i 1 : Nat) < 1 := (i 1).isLt
  have hi2 : (i 2 : Nat) < 1 := (i 2).isLt
  have hN : cfg0.N = 64 := N_0
  let t : Fin cfg0.N := ⟨16 * (i 0 : Nat) + 15, by omega⟩
  have ht : t.val = 16 * (i 0 : Nat) + 15 := rfl
  refine ⟨t, (flush0_4 t).mpr (by rw [ht]; omega), ?_⟩
  show i ∈ ((View.whole main_v22).slice (win0_4.rect t)).set
  rw [View.set_slice_whole, Rect.mem_set_unit]
  intro a
  match a with
  | ⟨0, _⟩ =>
    show win0_4.index t 0 * 1 ≤ (i 0 : Nat) ∧ (i 0 : Nat) < win0_4.index t 0 * 1 + 1
    rw [(index_4 t).1, ht]; omega
  | ⟨1, _⟩ =>
    show win0_4.index t 1 * 1 ≤ (i 1 : Nat) ∧ (i 1 : Nat) < win0_4.index t 1 * 1 + 1
    rw [(index_4 t).2.1]; omega
  | ⟨2, _⟩ =>
    show win0_4.index t 2 * 1 ≤ (i 2 : Nat) ∧ (i 2 : Nat) < win0_4.index t 2 * 1 + 1
    rw [(index_4 t).2.2]; omega

/-- So the result array ends as the specification's array of batch totals. -/
theorem final_out (c : Dev nD) : outFinal m c = batchTotals (sdOf m c) (tdOf m c) :=
  (dats m 0 c).arrAt_eq_of_cover 4 (batchTotals (sdOf m c) (tdOf m c)) (flushed_eq m c) (cover_out c)

/-! ## The value @main returns -/

/-- The last host lines: (0 + the sum of the result array) / 2^26. -/
theorem W7_v24 (c : Dev nD) : W7 m c (Proc.devRef .tc main_v24) = kernelResult (sdOf m c) (tdOf m c) := by
  show StableHlo.after (hostOps1 (F := F)) (W6 m c) (Proc.devRef .tc main_v24) = _
  after_results_simp
  rw [W6_v22, final_out]
  rfl

/-- The run, read: @main ends with its result at the specification's value of the two arguments' unit differences, and
    both arguments as launched. -/
theorem run_value : θ_run defs (onTc (τ := τ) (main (F := F))) ⟨m, fun _ => 0, ρ⟩ (fun r => ∀ c : Dev nD,
      r.2.mem ((c.tc : Thread nD τ).loc main_v24)
        = kernelResult (unitDiffs (m ((c.tc : Thread nD τ).loc main_arg0))) (unitDiffs (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ v24_mem).trans ((W7_v24 m c).trans (by
        show kernelResult (V m c main_v10) (V m c main_v21) = _
        rw [V_v10, V_v21])),
      (h c _ arg0_mem).trans (W7_arg0 m c), (h c _ arg1_mem).trans (W7_arg1 m c)⟩) (run_all m ρ)

end Cert.KernelIdeal.Hand

end
-- ==== Proof.BridgeSum.lean ====
/-
  Re-indexing of finite sums in a commutative additive monoid. Nothing here mentions a program.

  * A rank-3 index set is the product of its three coordinate ranges, so a sum over it is a triple sum.
  * A run of m * n consecutive numbers is m blocks of n: number i * n + r is entry r of block i.
  * A sum over a one-element range is its one term.
  * A double sum over 4096 x 4096 is the sum over the 4 x 4 arrangement of tiles of the double sums over each
    1024 x 1024 tile: row 1024 i + r is row r of block i, column 1024 j + c is column c of block j.

  Only commutativity and associativity of the addition are used: the sums are re-arranged, never evaluated.
-/
import Idealize.ShloMosaic.Lib.ValueIdx

open scoped BigOperators

namespace Cert.Bridge

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Number i * n + r, with i < m and r < n, is below m * n. -/
theorem block_lt {m n : Nat} (i : Fin m) (r : Fin n) : i.val * n + r.val < m * n :=
  Nat.lt_of_lt_of_le (Nat.add_lt_add_left r.isLt _)
    (by rw [← Nat.succ_mul]; exact Nat.mul_le_mul_right _ i.isLt)

/-- A sum over N = m * n consecutive numbers, cut into m blocks of n: the number i * n + r is entry r of block i. -/
theorem sum_fin_blocks {M : Type*} [AddCommMonoid M] {N : Nat} (m n : Nat) (h : N = m * n) (f : Fin N → M) :
    ∑ k, f k = ∑ i : Fin m, ∑ r : Fin n, f ⟨i.val * n + r.val, h ▸ block_lt i r⟩ := by
  subst h
  rw [← Equiv.sum_comp finProdFinEquiv f, Fintype.sum_prod_type]
  refine Finset.sum_congr rfl fun i _ => Finset.sum_congr rfl fun r _ => congrArg f (Fin.ext ?_)
  show r.val + n * i.val = i.val * n + r.val
  rw [Nat.mul_comm, Nat.add_comm]

/-- A sum over a one-element range is its one term. -/
theorem sum_fin_one {M : Type*} [AddCommMonoid M] (f : Fin 1 → M) : ∑ u, f u = f 0 :=
  Fin.sum_univ_one f

/-- Row r of block i of 4096 rows cut into 4 blocks of 1024: row i * 1024 + r. -/
def blk (i : Fin 4) (r : Fin 1024) : Fin 4096 :=
  ⟨i.val * 1024 + r.val, by have := i.isLt; have := r.isLt; omega⟩

/-- A sum over 4096 rows is the sum over the 4 blocks of the sums over each block's 1024 rows. -/
theorem sum_blk {M : Type*} [AddCommMonoid M] (f : Fin 4096 → M) :
    ∑ k, f k = ∑ i : Fin 4, ∑ r : Fin 1024, f (blk i r) :=
  sum_fin_blocks 4 1024 (by norm_num) f

/-- A double sum over 4096 x 4096 entries, tile by tile: first the tile (i, j), then the entry (r, c) inside it. -/
theorem sum_tiled {M : Type*} [AddCommMonoid M] (f : Fin 4096 → Fin 4096 → M) :
    ∑ k, ∑ l, f k l = ∑ i : Fin 4, ∑ j : Fin 4, ∑ r : Fin 1024, ∑ c : Fin 1024, f (blk i r) (blk j c) :=
  calc ∑ k, ∑ l, f k l
      = ∑ i : Fin 4, ∑ r : Fin 1024, ∑ l, f (blk i r) l := sum_blk _
    _ = ∑ i : Fin 4, ∑ r : Fin 1024, ∑ j : Fin 4, ∑ c : Fin 1024, f (blk i r) (blk j c) :=
        Finset.sum_congr rfl fun i _ => Finset.sum_congr rfl fun r _ => sum_blk _
    _ = ∑ i : Fin 4, ∑ j : Fin 4, ∑ r : Fin 1024, ∑ c : Fin 1024, f (blk i r) (blk j c) :=
        Finset.sum_congr rfl fun i _ => Finset.sum_comm

end Cert.Bridge
-- ==== Proof.BridgeLoss.lean ====
/-
  The loss both programs compute, entry by entry, at the ideal values (extended reals, every operation exact).

  * smoothL1 D = if |D| < 1 then (1/2 D) D else |D| - 1/2, with 1 and 1/2 kept as the words the programs write.
  * gram X b k l = the sum over d of X[b,k,d] X[b,l,d]: entry (k, l) of batch b's Gram plane of a [4, 4096, 128] array.
  * lossEntry sd td b k l = smoothL1 (gram sd b k l - gram td b k l).

  The kernel's spelling of the loss over a whole array of differences (constants broadcast from scalars, the device's
  absolute value) and the reference's (constants broadcast from rank-0 arrays, the host's absolute value) both read,
  at an index, as smoothL1 of the difference there: every operation in them is pointwise, and at the ideal values
  the host's absolute value is the device's.
-/
import Idealize.ShloMosaic.Lib.ValueIdx

open scoped BigOperators

noncomputable section

namespace Cert.Bridge

open Idealize.ShloMosaic Idealize.ShloMosaic.ValueIdx

/-- Smooth-L1 of one difference: if |D| < 1 then (1/2 D) D else |D| - 1/2. -/
def smoothL1 (D : Ideal .f32) : Ideal .f32 :=
  Scalar.select (FloatOps.cmpf .olt (FloatOps.absf D) (FloatOps.ofBits .f32 0x3F800000#32))
    (FloatOps.mulf (FloatOps.mulf (FloatOps.ofBits .f32 0x3F000000#32) D) D)
    (FloatOps.subf (FloatOps.absf D) (FloatOps.ofBits .f32 0x3F000000#32))

/-- Entry (k, l) of batch b's Gram plane: the sum over d of X[b,k,d] X[b,l,d]. -/
def gram (X : (⟨3, ![4, 4096, 128]⟩ : Shape).Idx → Ideal .f32) (b : Fin 4) (k l : Fin 4096) : Ideal .f32 :=
  ∑ d : Fin 128, X (ix3 b k d) * X (ix3 b l d)

/-- The loss at (b, k, l): smooth-L1 of the difference of the two Gram entries. -/
def lossEntry (sd td : (⟨3, ![4, 4096, 128]⟩ : Shape).Idx → Ideal .f32) (b : Fin 4) (k l : Fin 4096) : Ideal .f32 :=
  smoothL1 (FloatOps.subf (gram sd b k l) (gram td b k l))

/-- The kernel's spelling over a whole array of differences A - B, read at an index. -/
theorem kernel_loss_apply {s : Shape} (A B : FVec Ideal s .f32) (i : s.Idx) :
    select (cmpf .olt (absf (subf A B)) (broadcast s (Scalar.ofBits (F := Ideal) .f32 0x3F800000#32)))
        (mulf (mulf (broadcast s (Scalar.ofBits (F := Ideal) .f32 0x3F000000#32)) (subf A B)) (subf A B))
        (subf (absf (subf A B)) (broadcast s (Scalar.ofBits (F := Ideal) .f32 0x3F000000#32))) i
      = smoothL1 (FloatOps.subf (A i) (B i)) := rfl

/-- The reference's spelling over a whole array of differences A - B, read at an index. -/
theorem host_loss_apply {s : Shape} (h : (⟨0, ![]⟩ : Shape).BroadcastsInDim s ![]) (A B : FVec Ideal s .f32) (i : s.Idx) :
    select (cmpf .olt (Host.absf (subf A B)) (broadcastInDim s ![] h (constant (F := Ideal) ⟨0, ![]⟩ .f32 0x3F800000#32)))
        (mulf (mulf (broadcastInDim s ![] h (constant (F := Ideal) ⟨0, ![]⟩ .f32 0x3F000000#32)) (subf A B)) (subf A B))
        (subf (Host.absf (subf A B)) (broadcastInDim s ![] h (constant (F := Ideal) ⟨0, ![]⟩ .f32 0x3F000000#32))) i
      = smoothL1 (FloatOps.subf (A i) (B i)) := rfl

end Cert.Bridge

end
-- ==== Proof.BridgeTile.lean ====
/-
  One tile of the kernel, at the ideal values.

  The body's last payload takes four [1, 1024, 128] row blocks x, y (of the first array) and x', y' (of the second),
  drops their leading unit axis, multiplies x by the transpose of y and x' by the transpose of y' into zero
  accumulators, takes the smooth-L1 value of the difference entry by entry, and sums the 1024 x 1024 values.

  * The matrix product of x with the transpose of y, read at (r, c), is the sum over d of x[0,r,d] y[0,c,d]: the
    product contracts the second axis of the left operand with the first of the right, the transpose swaps the
    coordinates back, and the cast of [1, 1024, 128] to [1024, 128] reads row r at (0, r).
  * The reduction over axes 1 and 2 of a [1, 1024, 1024] array into [1] is the sum over all its entries, that is
    over (r, c); the casts to and from the unit shapes move no entry.
  * With x, y the row blocks i and j of batch b, entry (r, c) is the loss at (b, 1024 i + r, 1024 j + c).
-/
import proofs.«163193_j27479200759850_1_alg».proof.Proof.Spec
import proofs.«163193_j27479200759850_1_alg».proof.Proof.BridgeSum
import proofs.«163193_j27479200759850_1_alg».proof.Proof.BridgeLoss
import Idealize.ShloMosaic.Lib.ValueLayout
import Idealize.ShloMosaic.Lib.Pipeline.Value
import Idealize.ShloMosaic.PureOps.Ideal.Laws

open scoped BigOperators

noncomputable section

namespace Cert.Bridge

open Idealize.ShloMosaic Idealize.ShloMosaic.ValueIdx Cert.KernelIdeal

/-- The kernel's matrix product: [1024, 128] times [128, 1024], contracting axis 1 with axis 0. -/
abbrev kdot : DotDims S1024x128 S128x1024 S1024x1024 := dot_S1024x128_S128x1024_S1024x1024_1_0_0_1_n_n

/-- The left operand is read at the result's row … -/
theorem kdot_lhs_0 (j : S1024x1024.Idx) (q : kdot.contr.Idx) : (kdot.lhsIdx j q 0).val = (j 0).val := by
  unfold DotDims.lhsIdx
  rw [dif_neg (show ¬(0 : Fin S1024x128.rank) ∈ kdot.lhsBatch by decide),
    dif_pos (show (0 : Fin S1024x128.rank) ∈ kdot.lhsNonContracting by decide)]
  rfl
/-- … and the contraction position; -/
theorem kdot_lhs_1 (j : S1024x1024.Idx) (q : kdot.contr.Idx) : (kdot.lhsIdx j q 1).val = (q ⟨0, by decide⟩).val :=
  kdot.lhsIdx_val_of_single rfl j q
/-- the right operand at the contraction position … -/
theorem kdot_rhs_0 (j : S1024x1024.Idx) (q : kdot.contr.Idx) : (kdot.rhsIdx j q 0).val = (q ⟨0, by decide⟩).val :=
  kdot.rhsIdx_val_of_single rfl j q
/-- … and the result's column. -/
theorem kdot_rhs_1 (j : S1024x1024.Idx) (q : kdot.contr.Idx) : (kdot.rhsIdx j q 1).val = (j 1).val := by
  unfold DotDims.rhsIdx
  rw [dif_neg (show ¬(1 : Fin S128x1024.rank) ∈ kdot.rhsBatch by decide),
    dif_pos (show (1 : Fin S128x1024.rank) ∈ kdot.rhsNonContracting by decide)]
  rfl

/-- One entry of the product of a row block with the transpose of another: the sum over d of x[0,r,d] y[0,c,d]. -/
theorem tile_gram_apply (x y : FVec Ideal S1x1024x128 .f32)
    (h1 : S1x1024x128.ShapeCasts S1024x128) (h2 : S1024x128.Transposes [1, 0] S128x1024) (r c : Fin 1024) :
    matmul (φ₁ := .f32) (φ₂ := .f32) kdot none (shapeCast S1024x128 x h1) (transpose S128x1024 [1, 0] (shapeCast S1024x128 y h1) h2)
        (constant (F := Ideal) S1024x1024 .f32 0x00000000#32) (ix2 r c)
      = ∑ d : Fin 128, x (ix3 (0 : Fin 1) r d) * y (ix3 (0 : Fin 1) c d) := by
  simp only [matmul]
  rw [Ideal.matmul_constant_zero_apply, ← Equiv.sum_comp (contrEquiv1 kdot 128 rfl rfl).symm]
  refine Finset.sum_congr rfl fun d _ => ?_
  have hk := contrEquiv1_symm_val kdot 128 rfl rfl d
  have el : kdot.lhsIdx (ix2 r c) ((contrEquiv1 kdot 128 rfl rfl).symm d) = ix2 r d := funext fun a => Fin.ext (by
    match a with
    | ⟨0, _⟩ => exact kdot_lhs_0 _ _
    | ⟨1, _⟩ => exact (kdot_lhs_1 _ _).trans hk)
  have er : kdot.rhsIdx (ix2 r c) ((contrEquiv1 kdot 128 rfl rfl).symm d) = ix2 d c := funext fun a => Fin.ext (by
    match a with
    | ⟨0, _⟩ => exact (kdot_rhs_0 _ _).trans hk
    | ⟨1, _⟩ => exact kdot_rhs_1 _ _)
  rw [el, er, shapeCast_1ab_ab_apply, transpose_ix2_apply, shapeCast_1ab_ab_apply]

/-- The one index of the [1, 1, 1] shape. -/
abbrev ι : S1x1x1.Idx := ix3 (0 : Fin 1) (0 : Fin 1) (0 : Fin 1)

/-- The tile payload at its one index: the sum over the 1024 x 1024 entries (r, c) of the smooth-L1 value of the
    difference of the two products' entries. -/
theorem pay4_apply (v5 v7 v9 v11 : FVec Ideal S1x1024x128 .f32) :
    Gen.k0_pay4 (F := Ideal) v5 v7 v9 v11 ι
      = ∑ r : Fin 1024, ∑ c : Fin 1024,
          smoothL1 (FloatOps.subf (∑ d : Fin 128, v5 (ix3 (0 : Fin 1) r d) * v7 (ix3 (0 : Fin 1) c d))
            (∑ d : Fin 128, v9 (ix3 (0 : Fin 1) r d) * v11 (ix3 (0 : Fin 1) c d))) := by
  unfold Gen.k0_pay4
  -- the cast of [1] to [1, 1, 1] reads the one entry
  refine (shapeCast_apply _ _ ι (ix1 (0 : Fin 1)) ?_).trans ?_
  · rw [Shape.rowMajor_val_one, Shape.rowMajor_val_three]; rfl
  -- the reduction into the one-entry shape is the sum over every entry of the [1, 1024, 1024] array
  refine (Ideal.multiReduction_add_total _ _ _ (fun b => by match b with | ⟨0, _⟩ => rfl) _ _ _).trans ?_
  refine (sum_idx3 _).trans ?_
  rw [sum_fin_one]
  refine Finset.sum_congr rfl fun r _ => Finset.sum_congr rfl fun c _ => ?_
  -- the cast of [1024, 1024] to [1, 1024, 1024] reads (0, r, c) at (r, c)
  refine (shapeCast_ab_1ab_apply _ _ (0 : Fin 1) r c).trans ?_
  refine (kernel_loss_apply _ _ (ix2 r c)).trans ?_
  rw [tile_gram_apply, tile_gram_apply]

/-- Row r of row block i of batch b is row 1024 i + r of the array. -/
theorem rowBlock_apply (X : S4x4096x128.Idx → Ideal .f32) (b i : Fin 4) (r : Fin 1024) (d : Fin 128) :
    rowBlock (F := Ideal) X b i (ix3 (0 : Fin 1) r d) = X (ix3 b (blk i r) d) := rfl

/-- The total of tile (i, j) of batch b: the sum over the tile's entries (r, c) of the loss at
    (b, 1024 i + r, 1024 j + c). -/
theorem tileTotal_apply (sd td : S4x4096x128.Idx → Ideal .f32) (b i j : Fin 4) :
    tileTotal (F := Ideal) sd td b i j ι
      = ∑ r : Fin 1024, ∑ c : Fin 1024, lossEntry sd td b (blk i r) (blk j c) := by
  unfold tileTotal
  refine (pay4_apply _ _ _ _).trans ?_
  refine Finset.sum_congr rfl fun r _ => Finset.sum_congr rfl fun c _ => ?_
  unfold lossEntry gram
  simp only [rowBlock_apply]

end Cert.Bridge

end
-- ==== Proof.BridgeAccum.lean ====
/-
  The kernel's accumulator and its [4, 1, 1] array of batch totals, at the ideal values.

  * The reset payload is the constant 0; the carried payload is a cast of [1, 1, 1] to itself, the identity; the
    stored payload adds the tile total's one entry to the accumulator's. So the accumulator after k tiles is the
    sum of the first k tile totals (induction on k; 0 + x = x starts it).
  * Tile number k' of a batch is (k' / 4, k' mod 4), so the 16 tiles in the order visited are the 4 x 4 arrangement
    row by row: k' = 4 i + j.
  * Entry b of the [4, 1, 1] array is batch b's accumulator after 16 tiles; the host's sum over all three axes is the
    initial value plus the sum over b.
-/
import proofs.«163193_j27479200759850_1_alg».proof.Proof.Spec
import proofs.«163193_j27479200759850_1_alg».proof.Proof.BridgeTile
import Idealize.ShloMosaic.Lib.Pipeline.Value
import Idealize.ShloMosaic.PureOps.Ideal.Laws

open scoped BigOperators

noncomputable section

namespace Cert.Bridge

open Idealize.ShloMosaic Idealize.ShloMosaic.ValueIdx Cert.KernelIdeal

/-- The reset value is 0. -/
theorem pay2_apply (y : S1x1x1.Idx) : Gen.k0_pay2 (F := Ideal) y = 0 := by
  show Ideal.ofBits .f32 0x00000000#32 = 0
  exact Ideal.ofBits_zero_f32

/-- The cast of [1, 1, 1] to itself is the identity. -/
theorem pay3_apply (v : FVec Ideal S1x1x1 .f32) : Gen.k0_pay3 (F := Ideal) v = v := by
  unfold Gen.k0_pay3
  exact shapeCast_self v _

/-- The entry extracted at position (0, 0, 0) is the entry at the one index. -/
theorem extractAt_ι (t : FVec Ideal S1x1x1 .f32) (h : ∀ a, (![0, 0, 0] : Fin 3 → Nat) a < S1x1x1.size a) :
    extractAt ![0, 0, 0] t h = t ι := by
  unfold extractAt
  exact congrArg t (funext fun ax => Fin.ext (by
    match ax with
    | ⟨0, _⟩ => rfl
    | ⟨1, _⟩ => rfl
    | ⟨2, _⟩ => rfl))

/-- The stored value adds the tile total's one entry to the accumulator's. -/
theorem pay1_apply (a t : FVec Ideal S1x1x1 .f32) : Gen.k0_pay1 (F := Ideal) a t ι = a ι + t ι := by
  unfold Gen.k0_pay1
  exact congrArg (a ι + ·) (extractAt_ι t _)

/-- The accumulator of batch b after k tiles is the sum of its first k tile totals. -/
theorem accum_apply (sd td : S4x4096x128.Idx → Ideal .f32) (b : Fin 4) (k : Nat) :
    accum (F := Ideal) sd td b k ι
      = ∑ k' ∈ Finset.range k, tileTotal (F := Ideal) sd td b (tileRow k') (tileCol k') ι := by
  induction k with
  | zero =>
    rw [Finset.sum_range_zero]
    exact pay2_apply ι
  | succ k ih =>
    rw [Finset.sum_range_succ, ← ih]
    show Gen.k0_pay1 (F := Ideal) (Gen.k0_pay3 (accum sd td b k)) (tileTotal sd td b (tileRow k) (tileCol k)) ι = _
    rw [pay1_apply, pay3_apply]

/-- The 16 tiles of a batch in the order visited are the 4 x 4 arrangement row by row: tile 4 i + j is (i, j). -/
theorem sum_tiles {M : Type*} [AddCommMonoid M] (g : Fin 4 → Fin 4 → M) :
    ∑ k ∈ Finset.range 16, g (tileRow k) (tileCol k) = ∑ i : Fin 4, ∑ j : Fin 4, g i j := by
  rw [Finset.sum_range, sum_fin_blocks 4 4 (by norm_num)]
  refine Finset.sum_congr rfl fun i _ => Finset.sum_congr rfl fun j _ => ?_
  have hi : tileRow (i.val * 4 + j.val) = i := Fin.ext (by
    show (i.val * 4 + j.val) / 4 % 4 = i.val
    have := i.isLt; have := j.isLt; omega)
  have hj : tileCol (i.val * 4 + j.val) = j := Fin.ext (by
    show (i.val * 4 + j.val) % 4 = j.val
    have := j.isLt; omega)
  show g (tileRow (i.val * 4 + j.val)) (tileCol (i.val * 4 + j.val)) = g i j
  rw [hi, hj]

/-- The sum of the [4, 1, 1] array of batch totals, taken batch by batch and tile by tile. -/
theorem sum_batchTotals (sd td : S4x4096x128.Idx → Ideal .f32) :
    ∑ y : S4x1x1.Idx, batchTotals (F := Ideal) sd td y
      = ∑ b : Fin 4, ∑ i : Fin 4, ∑ j : Fin 4, ∑ r : Fin 1024, ∑ c : Fin 1024, lossEntry sd td b (blk i r) (blk j c) := by
  refine (sum_idx3 _).trans ?_
  refine Finset.sum_congr rfl fun b _ => ?_
  rw [sum_fin_one, sum_fin_one]
  show accum (F := Ideal) sd td b 16 ι = _
  rw [accum_apply]
  refine (sum_tiles (fun i j => tileTotal (F := Ideal) sd td b i j ι)).trans ?_
  exact Finset.sum_congr rfl fun i _ => Finset.sum_congr rfl fun j _ => tileTotal_apply sd td b i j

/-- The kernel's host sum over the [4, 1, 1] array: the initial value plus the sum of every entry. -/
theorem kernel_total (sd td : S4x4096x128.Idx → Ideal .f32) (i : S_.Idx) :
    Host.reduceAdd (batchTotals (F := Ideal) sd td) (constant (F := Ideal) S_ .f32 0x00000000#32)
        Facts₀.reducesTo_S4x1x1_S_d0_1_2 Facts₀.h_S_ i
      = Ideal.ofBits .f32 0x00000000#32
        + ∑ b : Fin 4, ∑ i : Fin 4, ∑ j : Fin 4, ∑ r : Fin 1024, ∑ c : Fin 1024, lossEntry sd td b (blk i r) (blk j c) := by
  rw [← sum_batchTotals]
  generalize batchTotals (F := Ideal) sd td = y0
  simp only [Host.reduceAdd, Ideal.hostReduceAdd_def]
  exact Ideal.hostReduceAdd_total Facts₀.reducesTo_S4x1x1_S_d0_1_2 (fun b => b.elim0) y0 _ i

end Cert.Bridge

end
-- ==== Proof.BridgePlane.lean ====
/-
  The reference's loss plane and its total, at the ideal values.

  * The batched product of a [4, 4096, 128] array with itself (batch axis 0 with 0, contracting axis 2 with 2), read
    at (b, k, l), is the sum over d of X[b,k,d] X[b,l,d]: the Gram entry.
  * The plane's remaining operations are pointwise, so its entry (b, k, l) is the loss there.
  * The host's sum over all three axes into the rank-0 shape is the initial value plus the sum over every index;
    the sum over (b, k, l) is then taken tile by tile: k = 1024 i + r, l = 1024 j + c.
-/
import proofs.«163193_j27479200759850_1_alg».proof.Proof.Spec
import proofs.«163193_j27479200759850_1_alg».proof.Proof.Gen.ReferenceIdeal.Read
import proofs.«163193_j27479200759850_1_alg».proof.Proof.BridgeSum
import proofs.«163193_j27479200759850_1_alg».proof.Proof.BridgeLoss
import Idealize.ShloMosaic.PureOps.Ideal.Laws

open scoped BigOperators

noncomputable section

namespace Cert.Bridge

open Idealize.ShloMosaic Idealize.ShloMosaic.ValueIdx Cert.ReferenceIdeal

/-- The reference's batched product: [4, 4096, 128] with [4, 4096, 128], batch axis 0, contracting axis 2. -/
abbrev rdot : DotDims S4x4096x128 S4x4096x128 S4x4096x4096 := dot_S4x4096x128_S4x4096x128_S4x4096x4096_2_2_1_1_0_0

/-- The batched product of X with itself at (b, k, l) is the Gram entry: the sum over d of X[b,k,d] X[b,l,d]. -/
theorem ref_gram_apply (X : FVec Ideal S4x4096x128 .f32) (b : Fin 4) (k l : Fin 4096) :
    Host.dotGeneral (φ₁ := .f32) (φ₂ := .f32) rdot none X X (ix3 b k l) = gram X b k l := by
  unfold gram
  simp only [Host.dotGeneral]
  rw [Ideal.dotGeneral_apply, ← Equiv.sum_comp (contrEquiv1 rdot 128 rfl rfl).symm]
  refine Finset.sum_congr rfl fun d _ => ?_
  have hk := contrEquiv1_symm_val rdot 128 rfl rfl d
  have el : rdot.lhsIdx (ix3 b k l) ((contrEquiv1 rdot 128 rfl rfl).symm d) = ix3 b k d := funext fun a => Fin.ext (by
    match a with
    | ⟨0, _⟩ => exact Read.lhs_main_v22_0 _ _
    | ⟨1, _⟩ => exact Read.lhs_main_v22_1 _ _
    | ⟨2, _⟩ => exact (Read.lhs_main_v22_2 _ _).trans hk)
  have er : rdot.rhsIdx (ix3 b k l) ((contrEquiv1 rdot 128 rfl rfl).symm d) = ix3 b l d := funext fun a => Fin.ext (by
    match a with
    | ⟨0, _⟩ => exact Read.rhs_main_v22_0 _ _
    | ⟨1, _⟩ => exact Read.rhs_main_v22_1 _ _
    | ⟨2, _⟩ => exact (Read.rhs_main_v22_2 _ _).trans hk)
  rw [el, er]

/-- Entry (b, k, l) of the reference's loss plane is the loss there. -/
theorem lossPlane_apply (sd td : S4x4096x128.Idx → Ideal .f32) (b : Fin 4) (k l : Fin 4096) :
    lossPlane (F := Ideal) sd td (ix3 b k l) = lossEntry sd td b k l := by
  unfold lossPlane lossEntry
  refine (host_loss_apply _ _ _ (ix3 b k l)).trans ?_
  rw [ref_gram_apply, ref_gram_apply]

/-- The sum of the whole loss plane, taken batch by batch and tile by tile. -/
theorem sum_lossPlane (sd td : S4x4096x128.Idx → Ideal .f32) :
    ∑ y : S4x4096x4096.Idx, lossPlane (F := Ideal) sd td y
      = ∑ b : Fin 4, ∑ i : Fin 4, ∑ j : Fin 4, ∑ r : Fin 1024, ∑ c : Fin 1024, lossEntry sd td b (blk i r) (blk j c) := by
  refine (sum_idx3 _).trans ?_
  refine Finset.sum_congr rfl fun b _ => ?_
  refine (Finset.sum_congr rfl fun k _ => Finset.sum_congr rfl fun l _ => lossPlane_apply sd td b k l).trans ?_
  exact sum_tiled (fun k l => lossEntry sd td b k l)

/-- The reference's host sum over the whole plane: the initial value plus the sum of every entry. -/
theorem reference_total (sd td : S4x4096x128.Idx → Ideal .f32) (i : S_.Idx) :
    Host.reduceAdd (lossPlane (F := Ideal) sd td) (constant (F := Ideal) S_ .f32 0x00000000#32)
        Facts₀.reducesTo_S4x4096x4096_S_d0_1_2 Facts₀.h_S_ i
      = Ideal.ofBits .f32 0x00000000#32
        + ∑ b : Fin 4, ∑ i : Fin 4, ∑ j : Fin 4, ∑ r : Fin 1024, ∑ c : Fin 1024, lossEntry sd td b (blk i r) (blk j c) := by
  rw [← sum_lossPlane]
  generalize lossPlane (F := Ideal) sd td = y0
  simp only [Host.reduceAdd, Ideal.hostReduceAdd_def]
  exact Ideal.hostReduceAdd_total Facts₀.reducesTo_S4x4096x4096_S_d0_1_2 (fun b => b.elim0) y0 _ i

end Cert.Bridge

end
-- ==== Proof.BridgeValue.lean ====
/-
  The two programs return the same value, at the ideal values.

  The kernel's result is (0 + the sum of the four batch totals) divided by a constant; the reference's is
  (0 + the sum of the whole loss plane) divided by the same constant. Both sums, taken batch by batch and tile by
  tile, are the sum over (b, i, j, r, c) of the loss at (b, 1024 i + r, 1024 j + c): the same terms, re-arranged
  by commutativity and associativity of addition on the extended reals, with no finiteness needed. The divisor is
  the same word on both sides and is never evaluated.
-/
import proofs.«163193_j27479200759850_1_alg».proof.Proof.Spec
import proofs.«163193_j27479200759850_1_alg».proof.Proof.BridgeAccum
import proofs.«163193_j27479200759850_1_alg».proof.Proof.BridgePlane

open scoped BigOperators

noncomputable section

namespace Cert.Bridge

open Idealize.ShloMosaic Idealize.ShloMosaic.ValueIdx

/-- The kernel's result and the reference's result are equal. -/
theorem kernelResult_eq_referenceResult (sd td : Cert.KernelIdeal.S4x4096x128.Idx → Ideal .f32) :
    kernelResult (F := Ideal) sd td = referenceResult (F := Ideal) sd td := by
  funext i
  unfold kernelResult referenceResult Host.divf
  rw [kernel_total sd td i, reference_total sd td i]

end Cert.Bridge

end
-- ==== Proof.lean ====
/-
  The kernel and its reference compute the same number, over the extended reals.

  Both programs start from two inputs x, y : [4, 64, 128] and form, by the same host lines, the arrays of unit pairwise
  differences sd, td : [4, 4096, 128]. The reference takes the two batched Gram planes sd sd^T and td td^T
  ([4, 4096, 4096] each), the smooth-L1 value of their difference entry by entry, and returns (0 + the sum of all
  4 * 4096 * 4096 values) / 2^26. The kernel visits the planes tile by tile on a 4 x 4 x 4 grid (batch, tile row,
  tile column; 1024 x 1024 tiles), keeps one accumulator per batch — zeroed at the batch's first tile, one tile's
  total added at each of its 16 points, written to a [4,1,1] array after the last — and returns (0 + the sum of the
  four batch totals) / 2^26. The two results are the same sum, grouped differently: equal by commutativity and
  associativity of addition alone, which hold on the extended reals with no finiteness hypothesis.

  The frames. The kernel's two row-block windows read ONE array (so do the second pair): each such array is held by its
  two windows at the two halves of the full share. The body has two control cases (the accumulator reset or carried);
  each is run once on arbitrary staging buffers, and the proof data names what every staging buffer holds after every
  point. @main is run as seven segments — five stretches of host lines, the region, a last stretch of host lines — and
  at the end every unscoped buffer is read at the final valuation: both arguments as launched (no line writes them),
  the result at the specification's value. The word-level program is the same text as its idealization, and its frame
  the same proof at the word-level instance.

  The idealization rewrote no operation, so its sanctioned-idealization conjunct is trivial.
-/
import proofs.«163193_j27479200759850_1_alg».proof.Defs
import proofs.«163193_j27479200759850_1_alg».proof.Proof.Gen.Kernel
import proofs.«163193_j27479200759850_1_alg».proof.Proof.Gen.KernelIdeal
import proofs.«163193_j27479200759850_1_alg».proof.Proof.Gen.ReferenceIdeal
import proofs.«163193_j27479200759850_1_alg».proof.Proof.Gen.ReferenceIdeal.Run
import proofs.«163193_j27479200759850_1_alg».proof.Proof.Gen.Pre_finite_inputs
import proofs.«163193_j27479200759850_1_alg».proof.Proof.KRun
import proofs.«163193_j27479200759850_1_alg».proof.Proof.ResultFinal
import proofs.«163193_j27479200759850_1_alg».proof.Proof.BridgeValue
import Idealize.ShloMosaic.Adequacy
import Idealize.ShloMosaic.Init

noncomputable section

namespace Cert.Proof

open Idealize.ShloMosaic Idealize.ShloMosaic.TcCoe Idealize.SL.Sem

/-- The word-level kernel runs to the end and leaves both arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host lines only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

set_option maxRecDepth 65536 in
/-- The reference's result, in the specification's words: its first sixteen lines per input are the unit differences,
    the rest the loss plane, its sum and the division. -/
theorem reference_eq (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v35 (F := Ideal) m' c
      = Cert.Bridge.referenceResult (F := Ideal)
          (Cert.KernelIdeal.Hand.unitDiffs (F := Ideal) (m' ((c.tc : Thread Cert.ReferenceIdeal.nD Cert.ReferenceIdeal.τ).loc Cert.ReferenceIdeal.main_arg0)))
          (Cert.KernelIdeal.Hand.unitDiffs (F := Ideal) (m' ((c.tc : Thread Cert.ReferenceIdeal.nD Cert.ReferenceIdeal.τ).loc Cert.ReferenceIdeal.main_arg1))) := by
  unfold Cert.ReferenceIdeal.Value.res_main_v35 Cert.Bridge.referenceResult Cert.Bridge.lossPlane Cert.KernelIdeal.Hand.unitDiffs
  rfl

/-- From memories that agree on the arguments both programs end at the specification's value of the arguments' unit
    differences: the kernel at its grouping of the sum, the reference at its own, and the two groupings are equal. -/
theorem algebraic : Cert.algebraic_KernelIdeal_ReferenceIdeal := by
  intro m ρ m' ρ' _ hagree
  refine ⟨fun c => Cert.Bridge.kernelResult (F := Ideal)
      (Cert.KernelIdeal.Hand.unitDiffs (F := Ideal) (m ((c.tc : Thread Cert.KernelIdeal.nD Cert.KernelIdeal.τ).loc Cert.KernelIdeal.main_arg0)))
      (Cert.KernelIdeal.Hand.unitDiffs (F := Ideal) (m ((c.tc : Thread Cert.KernelIdeal.nD Cert.KernelIdeal.τ).loc Cert.KernelIdeal.main_arg1))),
    Cert.KernelIdeal.Hand.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [reference_eq, (hagree c).1, (hagree c).2]
  exact (Cert.Bridge.kernelResult_eq_referenceResult _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
